-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  main_v53

def fn_part2 {F : FTy → Type} [FloatOps F] (main_arg8 : FVec F S128x128 .f32) (main_arg9 : FVec F S128 .f32) (main_arg10 : FVec F S128x10 .f32) (main_arg11 : FVec F S10 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x10 .f32 := Host.absf main_arg10
  let main_cst_16 : FVec F S_ .f32 := constant S_ .f32 0x7F800000#32
  let main_v45 : FVec F S128x10 .f32 := broadcastInDim S128x10 ![] bcast_S_S128x10 main_cst_16
  let main_v46 : IVec S128x10 1 := cmpf .olt main_v44 main_v45
  let main_c_17 : IVec S_ 1 := constantI S_ 1 1#1
  let main_v47 : IVec S_ 1 := (fun x v => Host.reduce IntOp.andi x v reducesTo_S128x10_S_d0_1 h_S_) main_v46 main_c_17
  let main_v48 : IVec S_ 1 := andi main_v43 main_v47
  let main_v49 : FVec F S10 .f32 := Host.absf main_arg11
  let main_cst_18 : FVec F S_ .f32 := constant S_ .f32 0x7F800000#32
  let main_v50 : FVec F S10 .f32 := broadcastInDim S10 ![] bcast_S_S10 main_cst_18
  fn_part3 (F := F) main_v48 main_v49 main_v50

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x128 .f32) (main_arg7 : FVec F S128 .f32) (main_arg8 : FVec F S128x128 .f32) (main_arg9 : FVec F S128 .f32) (main_arg10 : FVec F S128x10 .f32) (main_arg11 : FVec F S10 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S1x10 : Shape := ⟨2, ![1, 10]⟩
abbrev S100000x10 : Shape := ⟨2, ![100000, 10]⟩
abbrev S5000x10 : Shape := ⟨2, ![5000, 10]⟩

abbrev nBuf : Space → Nat
  | .hbm => 108
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x10, .f32⟩
  | .hbm, ⟨11, _⟩ => ⟨S10, .f32⟩
  | .hbm, ⟨12, _⟩ => ⟨S100000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S1x1600000, .i32⟩
  | .hbm, ⟨17, _⟩ => ⟨S1600000, .i32⟩
  | .hbm, ⟨18, _⟩ => ⟨S1700000, .i32⟩
  | .hbm, ⟨19, _⟩ => ⟨S_, .f32⟩
  | .hbm, ⟨20, _⟩ => ⟨S1700000, .f32⟩
  | .hbm, ⟨21, _⟩ => ⟨S_, .f32⟩
  | .hbm, ⟨22, _⟩ => ⟨S100000, .f32⟩
  | .hbm, ⟨23, _⟩ => ⟨S1700000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000, .f32⟩
  | .hbm, ⟨42, _⟩ => ⟨S_, .i32⟩
  | .hbm, ⟨43, _⟩ => ⟨S1700000, .i32⟩
  | .hbm, ⟨44, _⟩ => ⟨S1700000, .i1⟩
  | .hbm, ⟨45, _⟩ => ⟨S_, .i32⟩
  | .hbm, ⟨46, _⟩ => ⟨S1700000, .i32⟩
  | .hbm, ⟨47, _⟩ => ⟨S1700000, .i32⟩
  | .hbm, ⟨48, _⟩ => ⟨S1700000, .i32⟩
  | .hbm, ⟨49, _⟩ => ⟨S1700000x1, .i32⟩
  | .hbm, ⟨50, _⟩ => ⟨S1700000, .f32⟩
  | .hbm, ⟨51, _⟩ => ⟨S1700000, .f32⟩
  | .hbm, ⟨52, _⟩ => ⟨S1700000x1, .f32⟩
  | .hbm, ⟨53, _⟩ => ⟨S100000x128, .f32⟩
  | .hbm, ⟨54, _⟩ => ⟨S_, .i32⟩
  | .hbm, ⟨55, _⟩ => ⟨S1700000, .i32⟩
  | .hbm, ⟨56, _⟩ => ⟨S1700000, .i1⟩
  | .hbm, ⟨57, _⟩ => ⟨S_, .i32⟩
  | .hbm, ⟨58, _⟩ => ⟨S1700000, .i32⟩
  | .hbm, ⟨59, _⟩ => ⟨S1700000, .i32⟩
  | .hbm, ⟨60, _⟩ => ⟨S1700000, .i32⟩
  | .hbm, ⟨61, _⟩ => ⟨S1700000x1, .i32⟩
  | .hbm, ⟨62, _⟩ => ⟨S1700000x128, .f32⟩
  | .hbm, ⟨63, _⟩ => ⟨S1700000x128, .f32⟩
  | .hbm, ⟨64, _⟩ => ⟨S1700000x128, .f32⟩
  | .hbm, ⟨65, _⟩ => ⟨S_, .f32⟩
  | .hbm, ⟨66, _⟩ => ⟨S100000x128, .f32⟩
  | .hbm, ⟨67, _⟩ => ⟨S1700000x1, .i32⟩
  | .hbm, ⟨68, _⟩ => ⟨S100000x128, .f32⟩
  | .hbm, ⟨69, _⟩ => ⟨S1x128, .f32⟩
  | .hbm, ⟨70, _⟩ => ⟨S100000x128, .f32⟩
  | .hbm, ⟨71, _⟩ => ⟨S_, .i32⟩
  | .hbm, ⟨72, _⟩ => ⟨S1700000, .i32⟩
  | .hbm, ⟨73, _⟩ => ⟨S1700000, .i1⟩
  | .hbm, ⟨74, _⟩ => ⟨S_, .i32⟩
  | .hbm, ⟨75, _⟩ => ⟨S1700000, .i32⟩
  | .hbm, ⟨76, _⟩ => ⟨S1700000, .i32⟩
  | .hbm, ⟨77, _⟩ => ⟨S1700000, .i32⟩
  | .hbm, ⟨78, _⟩ => ⟨S1700000x1, .i32⟩
  | .hbm, ⟨79, _⟩ => ⟨S1700000x128, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x128, .f32⟩
  | .hbm, ⟨97, _⟩ => ⟨S1700000x128, .f32⟩
  | .hbm, ⟨98, _⟩ => ⟨S1700000x128, .f32⟩
  | .hbm, ⟨99, _⟩ => ⟨S_, .f32⟩
  | .hbm, ⟨100, _⟩ => ⟨S100000x128, .f32⟩
  | .hbm, ⟨101, _⟩ => ⟨S1700000x1, .i32⟩
  | .hbm, ⟨102, _⟩ => ⟨S100000x128, .f32⟩
  | .hbm, ⟨103, _⟩ => ⟨S1x128, .f32⟩
  | .hbm, ⟨104, _⟩ => ⟨S1x128, .f32⟩
  | .hbm, ⟨105, _⟩ => ⟨S100000x128, .f32⟩
  | .hbm, ⟨106, _⟩ => ⟨S1x10, .f32⟩
  | .hbm, ⟨107, _⟩ => ⟨S100000x10, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S128x10, .f32⟩
  | .local _ .vmem, ⟨27, _⟩ => ⟨S1x10, .f32⟩
  | .local _ .vmem, ⟨28, _⟩ => ⟨S5000x10, .f32⟩
  | .local _ .vmem, ⟨29, _⟩ => ⟨S5000x10, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_c_7 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_c_10 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_c_12 : Ref sig .tc := ⟨.hbm, 88, rfl⟩
abbrev main_v60 : Ref sig .tc := ⟨.hbm, 89, rfl⟩
abbrev main_v61 : Ref sig .tc := ⟨.hbm, 90, rfl⟩
abbrev main_c_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg4_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem4_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x10 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x10 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x10 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S10_S1x10 : S10.ShapeCasts S1x10
  inb_S128x10_S128x10_0_0 : ∀ a, (![0, 0] : Fin 2 → Nat) a + S128x10.size a ≤ S128x10.size a
  h_S128x10 : 0 < S128x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x10_S5000x10_1_0_0_1_n_n_wf : DotDims.WF S5000x128 S128x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S100000x128.size a
  hwx3_4 : ∀ i : grid3.Coords, EltTy.bits .f32 = 32 ∨ (Rect.block (s := S100000x128) S5000x128.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x10.size a ≤ S128x10.size a
  hwx4_1 : ∀ i : grid4.Coords, EltTy.bits .f32 = 32 ∨ (Rect.block (s := S128x10) S128x10.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x10.size a ≤ S1x10.size a
  hwx4_2 : ∀ i : grid4.Coords, EltTy.bits .f32 = 32 ∨ (Rect.block (s := S1x10) S1x10.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x10.size a ≤ S100000x10.size a
  hwx4_3 : ∀ i : grid4.Coords, EltTy.bits .f32 = 32 ∨ (Rect.block (s := S100000x10) S5000x10.size (cc4_transform_3 i) (hinb4_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x10_S5000x10_1_0_0_1_n_n : DotDims S5000x128 S128x10 S5000x10 where
  lhsContracting := [1]
  rhsContracting := [0]
  lhsNonContracting := [0]
  rhsNonContracting := [1]
  lhsBatch := []
  rhsBatch := []
  wf := dot_S5000x128_S128x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v57) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v59) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v71) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v72) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v73) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v74) S5000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v74) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg10) S128x10.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v75) S1x10.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v76) S5000x10.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x10 : Shape := ⟨2, ![100000, 10]⟩
abbrev S1x10 : Shape := ⟨2, ![1, 10]⟩

abbrev nBuf : Space → Nat
  | .hbm => 198
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S128x10, .f32⟩
  | 11 => ⟨S10, .f32⟩
  | 12 => ⟨S100000, .i32⟩
  | 13 => ⟨S1x1600000, .i32⟩
  | 14 => ⟨S1600000, .i32⟩
  | 15 => ⟨S1700000, .i32⟩
  | 16 => ⟨S1x1600000, .i32⟩
  | 17 => ⟨S1600000, .i32⟩
  | 18 => ⟨S1700000, .i32⟩
  | 19 => ⟨S_, .f32⟩
  | 20 => ⟨S1700000, .f32⟩
  | 21 => ⟨S_, .f32⟩
  | 22 => ⟨S100000, .f32⟩
  | 23 => ⟨S1700000x1, .i32⟩
  | 24 => ⟨S100000, .f32⟩
  | 25 => ⟨S_, .f32⟩
  | 26 => ⟨S100000, .f32⟩
  | 27 => ⟨S100000, .i1⟩
  | 28 => ⟨S100000, .f32⟩
  | 29 => ⟨S_, .f32⟩
  | 30 => ⟨S_, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S100000x128, .f32⟩
  | 53 => ⟨S_, .i32⟩
  | 54 => ⟨S1700000, .i32⟩
  | 55 => ⟨S1700000, .i1⟩
  | 56 => ⟨S_, .i32⟩
  | 57 => ⟨S1700000, .i32⟩
  | 58 => ⟨S1700000, .i32⟩
  | 59 => ⟨S1700000, .i32⟩
  | 60 => ⟨S1700000x1, .i32⟩
  | 61 => ⟨S1700000x128, .f32⟩
  | 62 => ⟨S1700000x1, .f32⟩
  | 63 => ⟨S1700000x128, .f32⟩
  | 64 => ⟨S1700000x128, .f32⟩
  | 65 => ⟨S_, .f32⟩
  | 66 => ⟨S100000x128, .f32⟩
  | 67 => ⟨S1700000x1, .i32⟩
  | 68 => ⟨S100000x128, .f32⟩
  | 69 => ⟨S1x128, .f32⟩
  | 70 => ⟨S100000x128, .f32⟩
  | 71 => ⟨S100000x128, .f32⟩
  | 72 => ⟨S_, .f32⟩
  | 73 => ⟨S100000x128, .f32⟩
  | 74 => ⟨S100000x128, .f32⟩
  | 75 => ⟨S_, .f32⟩
  | 76 => ⟨S1700000, .f32⟩
  | 77 => ⟨S_, .f32⟩
  | 78 => ⟨S100000, .f32⟩
  | 79 => ⟨S1700000x1, .i32⟩
  | 80 => ⟨S100000, .f32⟩
  | 81 => ⟨S_, .f32⟩
  | 82 => ⟨S100000, .f32⟩
  | 83 => ⟨S100000, .i1⟩
  | 84 => ⟨S100000, .f32⟩
  | 85 => ⟨S_, .f32⟩
  | 86 => ⟨S_, .f32⟩
  | 87 => ⟨S100000, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S1700000, .f32⟩
  | 98 => ⟨S_, .i32⟩
  | 99 => ⟨S1700000, .i32⟩
  | 100 => ⟨S1700000, .i1⟩
  | 101 => ⟨S_, .i32⟩
  | 102 => ⟨S1700000, .i32⟩
  | 103 => ⟨S1700000, .i32⟩
  | 104 => ⟨S1700000, .i32⟩
  | 105 => ⟨S1700000x1, .i32⟩
  | 106 => ⟨S1700000, .f32⟩
  | 107 => ⟨S1700000, .f32⟩
  | 108 => ⟨S100000x128, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x128, .f32⟩
  | 118 => ⟨S1700000x1, .f32⟩
  | 119 => ⟨S1700000x128, .f32⟩
  | 120 => ⟨S1700000x128, .f32⟩
  | 121 => ⟨S_, .f32⟩
  | 122 => ⟨S100000x128, .f32⟩
  | 123 => ⟨S1700000x1, .i32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .f32⟩
  | 1 => ⟨S100000x128, .f32⟩
  | 2 => ⟨S100000x128, .f32⟩
  | 3 => ⟨S_, .f32⟩
  | 4 => ⟨S1700000, .f32⟩
  | 5 => ⟨S_, .f32⟩
  | 6 => ⟨S100000, .f32⟩
  | 7 => ⟨S1700000x1, .i32⟩
  | 8 => ⟨S100000, .f32⟩
  | 9 => ⟨S_, .f32⟩
  | 10 => ⟨S100000, .f32⟩
  | 11 => ⟨S100000, .i1⟩
  | 12 => ⟨S100000, .f32⟩
  | 13 => ⟨S_, .f32⟩
  | 14 => ⟨S_, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S100000x128, .f32⟩
  | 37 => ⟨S_, .i32⟩
  | 38 => ⟨S1700000, .i32⟩
  | 39 => ⟨S1700000, .i1⟩
  | 40 => ⟨S_, .i32⟩
  | 41 => ⟨S1700000, .i32⟩
  | 42 => ⟨S1700000, .i32⟩
  | 43 => ⟨S1700000, .i32⟩
  | 44 => ⟨S1700000x1, .i32⟩
  | 45 => ⟨S1700000x128, .f32⟩
  | 46 => ⟨S1700000x1, .f32⟩
  | 47 => ⟨S1700000x128, .f32⟩
  | 48 => ⟨S1700000x128, .f32⟩
  | 49 => ⟨S_, .f32⟩
  | 50 => ⟨S100000x128, .f32⟩
  | 51 => ⟨S1700000x1, .i32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S100000x128, .f32⟩
  | 60 => ⟨S1x128, .f32⟩
  | 61 => ⟨S100000x128, .f32⟩
  | 62 => ⟨S100000x128, .f32⟩
  | 63 => ⟨S_, .f32⟩
  | 64 => ⟨S100000x128, .f32⟩
  | 65 => ⟨S100000x128, .f32⟩
  | 66 => ⟨S100000x10, .f32⟩
  | 67 => ⟨S1x10, .f32⟩
  | 68 => ⟨S100000x10, .f32⟩
  | 69 => ⟨S100000x10, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_c_5 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_c_7 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_cst_8 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_call1_cst : Ref sig .tc := ⟨.hbm, 72, rfl⟩
abbrev main_call1_v0 : Ref sig .tc := ⟨.hbm, 73, rfl⟩
abbrev main_v47 : Ref sig .tc := ⟨.hbm, 74, rfl⟩
abbrev main_cst_9 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_12 : Ref sig .tc := ⟨.hbm, 85, rfl⟩
abbrev main_call2_v0 : Ref sig .tc := ⟨.hbm, 86, rfl⟩
abbrev main_call2_v1 : Ref sig .tc := ⟨.hbm, 87, rfl⟩
abbrev main_v55 : Ref sig .tc := ⟨.hbm, 88, rfl⟩
abbrev main_c_13 : Ref sig .tc := ⟨.hbm, 89, rfl⟩
abbrev main_v56 : Ref sig .tc := ⟨.hbm, 90, rfl⟩
abbrev main_v57 : Ref sig .tc := ⟨.hbm, 91, rfl⟩
abbrev main_c_14 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_c_15 : Ref sig .tc := ⟨.hbm, 98, rfl⟩
abbrev main_v63 : Ref sig .tc := ⟨.hbm, 99, rfl⟩
abbrev main_v64 : Ref sig .tc := ⟨.hbm, 100, rfl⟩
abbrev main_c_16 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_c_18 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_19 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call3_cst : Ref sig .tc := ⟨.hbm, 128, rfl⟩
abbrev main_call3_v0 : Ref sig .tc := ⟨.hbm, 129, rfl⟩
abbrev main_v88 : Ref sig .tc := ⟨.hbm, 130, rfl⟩
abbrev main_cst_20 : Ref sig .tc := ⟨.hbm, 131, rfl⟩
abbrev main_v89 : Ref sig .tc := ⟨.hbm, 132, rfl⟩
abbrev main_cst_21 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_cst_22 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_cst_23 : Ref sig .tc := ⟨.hbm, 141, rfl⟩
abbrev main_call4_v0 : Ref sig .tc := ⟨.hbm, 142, rfl⟩
abbrev main_call4_v1 : Ref sig .tc := ⟨.hbm, 143, rfl⟩
abbrev main_v96 : Ref sig .tc := ⟨.hbm, 144, rfl⟩
abbrev main_c_24 : Ref sig .tc := ⟨.hbm, 145, rfl⟩
abbrev main_v97 : Ref sig .tc := ⟨.hbm, 146, rfl⟩
abbrev main_v98 : Ref sig .tc := ⟨.hbm, 147, rfl⟩
abbrev main_c_25 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_c_26 : Ref sig .tc := ⟨.hbm, 154, rfl⟩
abbrev main_v104 : Ref sig .tc := ⟨.hbm, 155, rfl⟩
abbrev main_v105 : Ref sig .tc := ⟨.hbm, 156, rfl⟩
abbrev main_c_27 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_28 : Ref sig .tc := ⟨.hbm, 165, rfl⟩
abbrev main_v113 : Ref sig .tc := ⟨.hbm, 166, rfl⟩
abbrev main_v114 : Ref sig .tc := ⟨.hbm, 167, rfl⟩
abbrev main_c_29 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_cst_30 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_call5_cst : Ref sig .tc := ⟨.hbm, 184, rfl⟩
abbrev main_call5_v0 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_call6_cst : Ref sig .tc := ⟨.hbm, 191, rfl⟩
abbrev main_call6_v0 : Ref sig .tc := ⟨.hbm, 192, rfl⟩
abbrev main_v134 : Ref sig .tc := ⟨.hbm, 193, rfl⟩
abbrev main_v135 : Ref sig .tc := ⟨.hbm, 194, rfl⟩
abbrev main_v136 : Ref sig .tc := ⟨.hbm, 195, rfl⟩
abbrev main_v137 : Ref sig .tc := ⟨.hbm, 196, rfl⟩
abbrev main_v138 : Ref sig .tc := ⟨.hbm, 197, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x10_S100000x10_1_0_0_1_n_n_wf : DotDims.WF S100000x128 S128x10 S100000x10 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x10_S100000x10_1_0_0_1_n_n : DotDims S100000x128 S128x10 S100000x10 where
  lhsContracting := [1]
  rhsContracting := [0]
  lhsNonContracting := [0]
  rhsNonContracting := [1]
  lhsBatch := []
  rhsBatch := []
  wf := dot_S100000x128_S128x10_S100000x10_1_0_0_1_n_n_wf

class Facts : Prop extends Facts₀ where

variable [Facts]
-- ==== Proof.KernelRun.lean ====
/-
  The kernel's run with its result named: from any launch memory with zero counters, every weakly fair execution of
  the kernel program on the TensorCores terminates without fault, its result buffer ends at the last boundary's
  contents `W12` of the fold of buffer contents through the program's five regions and six host stretches, and every
  argument array ends as launched.
-/
import proofs.«154853_j13288628814527_1_alg».proof.Proof.Gen.KernelIdeal.Frame
import Idealize.ShloMosaic.PureOps.Ideal

set_option maxRecDepth 16384

noncomputable section

namespace Cert.Gcn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

-- the run theorem's implicit arguments are found by unifying its conclusion with this one, which takes unfolding
-- plain definitions in a metavariable's type
set_option backward.isDefEq.respectTransparency.types false in
/-- The run of the kernel program: the result buffer at the last boundary's contents, every argument as launched. -/
theorem run_named (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76) = W12 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v76 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.Gcn

end
-- ==== Proof.GcnSpec.lean ====
/-
  The layers of the graph network both programs compute, written once as whole-array functions over the extended
  reals.  With N = 100000 nodes, feature width 128 and 10 classes:
    * `dense a w`      : the matrix product, (a · w)[r, c] = Σ_k a[r, k] · w[k, c], k over the 128 features;
    * `biasRelu a b`   : max (a[r, c] + b[c], 0);
    * `dense10`, `addBias10` : the last layer, 128 features to 10 classes, plus its bias;
    * `rowVec`, `rowVec10`  : a bias stored as a one-row matrix, read as a vector.
-/
import proofs.«154853_j13288628814527_1_alg».proof.Proof.Gen.ReferenceIdeal
import Idealize.ShloMosaic.Lib.ValueIdx
import Idealize.ShloMosaic.PureOps.Ideal.Laws

noncomputable section

namespace Cert.Gcn

open Idealize.ShloMosaic Cert.ReferenceIdeal

/-- Entry (row of `i`, `k`) of a node-feature array. -/
abbrev rowAt (i : S100000x128.Idx) (k : Fin 128) : S100000x128.Idx := fun a => match a with
  | ⟨0, _⟩ => ⟨(i 0).val, (i 0).isLt⟩
  | ⟨1, _⟩ => ⟨k.val, k.isLt⟩
/-- Entry (`k`, column of `i`) of a 128 × 128 weight matrix. -/
abbrev colAt (i : S100000x128.Idx) (k : Fin 128) : S128x128.Idx := fun a => match a with
  | ⟨0, _⟩ => ⟨k.val, k.isLt⟩
  | ⟨1, _⟩ => ⟨(i 1).val, (i 1).isLt⟩
/-- The feature (column) of `i`, as an index of a bias vector. -/
abbrev laneAt (i : S100000x128.Idx) : S128.Idx := fun a => match a with
  | ⟨0, _⟩ => ⟨(i 1).val, (i 1).isLt⟩
/-- Entry (row of `i`, `k`) of a node-feature array, for an index `i` of the class scores. -/
abbrev rowAt10 (i : S100000x10.Idx) (k : Fin 128) : S100000x128.Idx := fun a => match a with
  | ⟨0, _⟩ => ⟨(i 0).val, (i 0).isLt⟩
  | ⟨1, _⟩ => ⟨k.val, k.isLt⟩
/-- Entry (`k`, class of `i`) of the 128 × 10 weight matrix. -/
abbrev colAt10 (i : S100000x10.Idx) (k : Fin 128) : S128x10.Idx := fun a => match a with
  | ⟨0, _⟩ => ⟨k.val, k.isLt⟩
  | ⟨1, _⟩ => ⟨(i 1).val, (i 1).isLt⟩
/-- The class of `i`, as an index of the last bias vector. -/
abbrev laneAt10 (i : S100000x10.Idx) : S10.Idx := fun a => match a with
  | ⟨0, _⟩ => ⟨(i 1).val, (i 1).isLt⟩

/-- Feature `j`'s place in a 1 × 128 row. -/
abbrev rowIdx (j : S128.Idx) : S1x128.Idx := fun a => match a with
  | ⟨0, _⟩ => ⟨0, Nat.one_pos⟩
  | ⟨1, _⟩ => ⟨(j 0).val, (j 0).isLt⟩
/-- Class `j`'s place in a 1 × 10 row. -/
abbrev rowIdx10 (j : S10.Idx) : S1x10.Idx := fun a => match a with
  | ⟨0, _⟩ => ⟨0, Nat.one_pos⟩
  | ⟨1, _⟩ => ⟨(j 0).val, (j 0).isLt⟩
/-- A bias held as a 1 × 128 row, read as a vector of 128 features. -/
def rowVec (b : FVec Ideal S1x128 .f32) : FVec Ideal S128 .f32 := fun j => b (rowIdx j)
/-- A bias held as a 1 × 10 row, read as a vector of 10 classes. -/
def rowVec10 (b : FVec Ideal S1x10 .f32) : FVec Ideal S10 .f32 := fun j => b (rowIdx10 j)

/-- The matrix product of node features with a 128 × 128 weight matrix. -/
def dense (a : FVec Ideal S100000x128 .f32) (w : FVec Ideal S128x128 .f32) : FVec Ideal S100000x128 .f32 :=
  fun i => ∑ k : Fin 128, a (rowAt i k) * w (colAt i k)

/-- Add a per-feature bias, then clamp below at zero. -/
def biasRelu (a : FVec Ideal S100000x128 .f32) (b : FVec Ideal S128 .f32) : FVec Ideal S100000x128 .f32 :=
  fun i => FloatOps.maximumf (FloatOps.addf (a i) (b (laneAt i))) (FloatOps.ofBits .f32 0x00000000#32)

/-- The matrix product of node features with the 128 × 10 weight matrix. -/
def dense10 (a : FVec Ideal S100000x128 .f32) (w : FVec Ideal S128x10 .f32) : FVec Ideal S100000x10 .f32 :=
  fun i => ∑ k : Fin 128, a (rowAt10 i k) * w (colAt10 i k)

/-- Add the per-class bias. -/
def addBias10 (a : FVec Ideal S100000x10 .f32) (b : FVec Ideal S10 .f32) : FVec Ideal S100000x10 .f32 :=
  fun i => FloatOps.addf (a i) (b (laneAt10 i))

end Cert.Gcn

end
-- ==== Proof.MatmulBlock.lean ====
/-
  One block's matrix product, entry by entry.  A block of 5000 node rows (128 features each) times a weight matrix
  with 128 rows: entry (r, c) of the product is Σ_k block[r, k] · weights[k, c], k over the 128 features.  The matrix
  unit accumulates into zeros, so nothing is added to the sum.  Stated once for the 128-column weights of the
  hidden layers and once for the 10-column weights of the last layer.
-/
import proofs.«154853_j13288628814527_1_alg».proof.Proof.Gen.KernelIdeal
import Idealize.ShloMosaic.Lib.ValueIdx
import Idealize.ShloMosaic.Lib.Pipeline.Value
import Idealize.ShloMosaic.PureOps.Ideal.Laws

noncomputable section

namespace Cert.Gcn.Block

open Idealize.ShloMosaic Cert.KernelIdeal

theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl
/-- Entry (row of `y`, `k`) of the left block. -/
abbrev brow (y : S5000x128.Idx) (k : Fin 128) : S5000x128.Idx := fun a => match a with
  | ⟨0, _⟩ => ⟨(y 0).val, (y 0).isLt⟩
  | ⟨1, _⟩ => ⟨k.val, k.isLt⟩
/-- Entry (`k`, column of `y`) of the weight matrix. -/
abbrev bcol (y : S5000x128.Idx) (k : Fin 128) : S128x128.Idx := fun a => match a with
  | ⟨0, _⟩ => ⟨k.val, k.isLt⟩
  | ⟨1, _⟩ => ⟨(y 1).val, (y 1).isLt⟩
/-- The matrix unit's product into a zero accumulator, read at an entry of the block: the sum over the 128 features
    of the left block's row times the weight matrix's column. -/
theorem matmul_block (a : FVec Ideal S5000x128 .bf16) (w : FVec Ideal S128x128 .bf16) (y : S5000x128.Idx) :
    matmul (F := Ideal) dot_S5000x128_S128x128_S5000x128_1_0_0_1_n_n none a w (constant (F := Ideal) S5000x128 .f32 0x00000000#32) y
      = ∑ k : Fin 128, a (brow y k) * w (bcol y k) := by
  refine (Ideal.matmul_constant_zero_apply dot_S5000x128_S128x128_S5000x128_1_0_0_1_n_n none a w y).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx y ((ValueIdx.contrEquiv1 dot_S5000x128_S128x128_S5000x128_1_0_0_1_n_n 128 rfl rfl).symm k) = brow y k := funext fun a => Fin.ext (by
    match a with
    | ⟨0, _⟩ => exact lhs_0 _ _
    | ⟨1, _⟩ => exact (lhs_1 _ _).trans hk)
  have er : dot_S5000x128_S128x128_S5000x128_1_0_0_1_n_n.rhsIdx y ((ValueIdx.contrEquiv1 dot_S5000x128_S128x128_S5000x128_1_0_0_1_n_n 128 rfl rfl).symm k) = bcol y k := funext fun a => Fin.ext (by
    match a with
    | ⟨0, _⟩ => exact (rhs_0 _ _).trans hk
    | ⟨1, _⟩ => exact rhs_1 _ _)
  rw [el, er]

theorem lhs10_0 (i : S5000x10.Idx) (q : dot_S5000x128_S128x10_S5000x10_1_0_0_1_n_n.contr.Idx) :
    (dot_S5000x128_S128x10_S5000x10_1_0_0_1_n_n.lhsIdx i q 0).val = (i 0).val := by
  unfold DotDims.lhsIdx
  rw [dif_neg (show ¬(0 : Fin S5000x128.rank) ∈ dot_S5000x128_S128x10_S5000x10_1_0_0_1_n_n.lhsBatch by decide), dif_pos (show (0 : Fin S5000x128.rank) ∈ dot_S5000x128_S128x10_S5000x10_1_0_0_1_n_n.lhsNonContracting by decide)]
  rfl
theorem lhs10_1 (i : S5000x10.Idx) (q : dot_S5000x128_S128x10_S5000x10_1_0_0_1_n_n.contr.Idx) :
    (dot_S5000x128_S128x10_S5000x10_1_0_0_1_n_n.lhsIdx i q 1).val = (q ⟨0, by decide⟩).val :=
  dot_S5000x128_S128x10_S5000x10_1_0_0_1_n_n.lhsIdx_val_of_single rfl i q
theorem rhs10_0 (i : S5000x10.Idx) (q : dot_S5000x128_S128x10_S5000x10_1_0_0_1_n_n.contr.Idx) :
    (dot_S5000x128_S128x10_S5000x10_1_0_0_1_n_n.rhsIdx i q 0).val = (q ⟨0, by decide⟩).val :=
  dot_S5000x128_S128x10_S5000x10_1_0_0_1_n_n.rhsIdx_val_of_single rfl i q
theorem rhs10_1 (i : S5000x10.Idx) (q : dot_S5000x128_S128x10_S5000x10_1_0_0_1_n_n.contr.Idx) :
    (dot_S5000x128_S128x10_S5000x10_1_0_0_1_n_n.rhsIdx i q 1).val = (i 1).val := by
  unfold DotDims.rhsIdx
  rw [dif_neg (show ¬(1 : Fin S128x10.rank) ∈ dot_S5000x128_S128x10_S5000x10_1_0_0_1_n_n.rhsBatch by decide), dif_pos (show (1 : Fin S128x10.rank) ∈ dot_S5000x128_S128x10_S5000x10_1_0_0_1_n_n.rhsNonContracting by decide)]
  rfl
/-- Entry (row of `y`, `k`) of the left block. -/
abbrev brow10 (y : S5000x10.Idx) (k : Fin 128) : S5000x128.Idx := fun a => match a with
  | ⟨0, _⟩ => ⟨(y 0).val, (y 0).isLt⟩
  | ⟨1, _⟩ => ⟨k.val, k.isLt⟩
/-- Entry (`k`, column of `y`) of the weight matrix. -/
abbrev bcol10 (y : S5000x10.Idx) (k : Fin 128) : S128x10.Idx := fun a => match a with
  | ⟨0, _⟩ => ⟨k.val, k.isLt⟩
  | ⟨1, _⟩ => ⟨(y 1).val, (y 1).isLt⟩
/-- The matrix unit's product into a zero accumulator, read at an entry of the block: the sum over the 128 features
    of the left block's row times the weight matrix's column. -/
theorem matmul_block10 (a : FVec Ideal S5000x128 .bf16) (w : FVec Ideal S128x10 .bf16) (y : S5000x10.Idx) :
    matmul (F := Ideal) dot_S5000x128_S128x10_S5000x10_1_0_0_1_n_n none a w (constant (F := Ideal) S5000x10 .f32 0x00000000#32) y
      = ∑ k : Fin 128, a (brow10 y k) * w (bcol10 y k) := by
  refine (Ideal.matmul_constant_zero_apply dot_S5000x128_S128x10_S5000x10_1_0_0_1_n_n none a w y).trans ?_
  rw [← Equiv.sum_comp (ValueIdx.contrEquiv1 dot_S5000x128_S128x10_S5000x10_1_0_0_1_n_n 128 rfl rfl).symm]
  refine Finset.sum_congr rfl fun k _ => ?_
  have hk := ValueIdx.contrEquiv1_symm_val dot_S5000x128_S128x10_S5000x10_1_0_0_1_n_n 128 rfl rfl k
  have el : dot_S5000x128_S128x10_S5000x10_1_0_0_1_n_n.lhsIdx y ((ValueIdx.contrEquiv1 dot_S5000x128_S128x10_S5000x10_1_0_0_1_n_n 128 rfl rfl).symm k) = brow10 y k := funext fun a => Fin.ext (by
    match a with
    | ⟨0, _⟩ => exact lhs10_0 _ _
    | ⟨1, _⟩ => exact (lhs10_1 _ _).trans hk)
  have er : dot_S5000x128_S128x10_S5000x10_1_0_0_1_n_n.rhsIdx y ((ValueIdx.contrEquiv1 dot_S5000x128_S128x10_S5000x10_1_0_0_1_n_n 128 rfl rfl).symm k) = bcol10 y k := funext fun a => Fin.ext (by
    match a with
    | ⟨0, _⟩ => exact (rhs10_0 _ _).trans hk
    | ⟨1, _⟩ => exact rhs10_1 _ _)
  rw [el, er]

/-- The bias entry that lands on entry `j` of a block when a 1 × 128 row is spread over the block's rows. -/
abbrev biasAt (j : S5000x128.Idx) : S1x128.Idx := fun a => match a with
  | ⟨0, _⟩ => ⟨0, Nat.one_pos⟩
  | ⟨1, _⟩ => ⟨(j 1).val, (j 1).isLt⟩
/-- The same for the 1 × 10 row of the last layer. -/
abbrev biasAt10 (j : S5000x10.Idx) : S1x10.Idx := fun a => match a with
  | ⟨0, _⟩ => ⟨0, Nat.one_pos⟩
  | ⟨1, _⟩ => ⟨(j 1).val, (j 1).isLt⟩

/-- A 1 × 128 row spread over 5000 rows, read at an entry: the row's entry in that column. -/
theorem bias_bcast (v : FVec Ideal S1x128 .f32) (h : S1x128.Broadcasts S5000x128) (j : S5000x128.Idx) :
    broadcastTo S5000x128 v h j = v (biasAt j) := by
  refine broadcastTo_apply v h j (biasAt j) fun ax => ?_
  match ax with
  | ⟨0, _⟩ => rfl
  | ⟨1, _⟩ => rfl
/-- A 1 × 10 row spread over 5000 rows, read at an entry. -/
theorem bias_bcast10 (v : FVec Ideal S1x10 .f32) (h : S1x10.Broadcasts S5000x10) (j : S5000x10.Idx) :
    broadcastTo S5000x10 v h j = v (biasAt10 j) := by
  refine broadcastTo_apply v h j (biasAt10 j) fun ax => ?_
  match ax with
  | ⟨0, _⟩ => rfl
  | ⟨1, _⟩ => rfl

/-- Bias added along the rows, then clamped below at zero, read at an entry of the block. -/
theorem bias_relu_entry (x0 : FVec Ideal S5000x128 .f32) (x1 : FVec Ideal S1x128 .f32) (h1 : S5000x128.ShapeCasts S5000x128)
    (h2 : S1x128.ShapeCasts S1x128) (h3 : S1x128.Broadcasts S5000x128) (j : S5000x128.Idx) :
    maximumf (addf (shapeCast S5000x128 x0 h1) (broadcastTo S5000x128 (shapeCast S1x128 x1 h2) h3))
        (broadcast S5000x128 (Scalar.ofBits (F := Ideal) .f32 0x00000000#32)) j
      = FloatOps.maximumf (FloatOps.addf (x0 j) (x1 (biasAt j))) (FloatOps.ofBits .f32 0x00000000#32) := by
  rw [shapeCast_self, shapeCast_self]
  show FloatOps.maximumf (FloatOps.addf (x0 j) (broadcastTo S5000x128 x1 h3 j)) _ = _
  rw [bias_bcast]
  rfl

end Cert.Gcn.Block

end
-- ==== Proof.Layer0.lean ====
/-
  The first layer's dense step, block by block.  The node features are cut into 20 blocks of 5000 rows; at grid
  point t the body multiplies block t by the whole 128 × 128 weight matrix and writes block t of the result.  Row
  r of block t is row 5000·t + r of the array, so what point t writes back is block t of the whole product
  `dense x w`; the 20 blocks tile the 100000 rows, hence the array ends holding `dense x w`.
-/
import proofs.«154853_j13288628814527_1_alg».proof.Proof.Gen.KernelIdeal.Frame
import proofs.«154853_j13288628814527_1_alg».proof.Proof.GcnSpec
import proofs.«154853_j13288628814527_1_alg».proof.Proof.MatmulBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layers

open Idealize.ShloMosaic Idealize.ShloMosaic.TcCoe Idealize.SL.Sem Idealize.ShloMosaic.Pipeline
open Cert.KernelIdeal Cert.KernelIdeal.Gen Cert.Gcn.Block

theorem hz0 : (![0, 0] : Fin 2 → Nat) = fun _ => 0 := funext fun a => by fin_cases a <;> rfl

/-- The body's stored value at an entry of the block: the row of the node block times the column of the weights. -/
theorem pay0_apply (x0 : Vec Ideal S5000x128 .f32) (x1 : Vec Ideal S128x128 .f32) (y : S5000x128.Idx) :
    k0_pay1 (F := Ideal) x0 x1 y = ∑ k : Fin 128, x0 (brow y k) * x1 (bcol y k) := by
  unfold k0_pay1
  exact matmul_block _ _ y

/-- The index maps over the grid: the node block and the result block move together along the rows, the weight
    matrix stays put, and the block number stays below 20. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the 20 row blocks is some point's. -/
theorem idx_onto0 : ∀ q : Fin 20, ∃ t : Fin cfg0.N, win0_2.index t = ![q.val, 0] :=
  (by decide +kernel : ∀ q : Fin 20, ∃ t : Fin grid0.N, win0_2.index t = ![q.val, 0])

/-- What point `t` writes back is block `t` of the whole product. -/
theorem flushed0 (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Gcn.dense (V c main_arg0) (V c main_arg2)) := by
  show (cfg0.win 2).cut (grid0.coords t) ((dat0 (F := Ideal) V c).after 2 t) = _
  rw [after0_2]
  unfold out0_2
  rw [View.canon_unit_zero hz0]
  simp only [View.ld_unit_zero (S := S5000x128) hz0, View.ld_unit_zero (S := S128x128) hz0]
  obtain ⟨e0, e1, e2, e3, e4, e5⟩ := idx_facts0 t
  funext y
  refine (pay0_apply (iblk0 V c 0 t) (iblk0 V c 1 t) y).trans ?_
  show (∑ k : Fin 128, FloatOps.mulf (F := Ideal) (φ := .f32) (V c main_arg0 (((cfg0.win 0).blk t).view.emb (brow y k))) (V c main_arg2 (((cfg0.win 1).blk t).view.emb (bcol y k))))
    = ∑ k : Fin 128, FloatOps.mulf (F := Ideal) (φ := .f32) (V c main_arg0 (Cert.Gcn.rowAt (((cfg0.win 2).blk t).view.emb y) k)) (V c main_arg2 (Cert.Gcn.colAt (((cfg0.win 2).blk t).view.emb y) k))
  refine Finset.sum_congr rfl fun k _ => ?_
  have h0 : ((cfg0.win 0).blk t).view.emb (brow y k) = Cert.Gcn.rowAt (((cfg0.win 2).blk t).view.emb y) k := by
    funext a; apply Fin.ext
    match a with
    | ⟨0, _⟩ => show win0_0.index t (0 : Fin 2) * 5000 + 1 * (y 0).val = win0_2.index t (0 : Fin 2) * 5000 + 1 * (y 0).val; omega
    | ⟨1, _⟩ => show win0_0.index t (1 : Fin 2) * 128 + 1 * k.val = k.val; omega
  have h1 : ((cfg0.win 1).blk t).view.emb (bcol y k) = Cert.Gcn.colAt (((cfg0.win 2).blk t).view.emb y) k := by
    funext a; apply Fin.ext
    match a with
    | ⟨0, _⟩ => show win0_1.index t (0 : Fin 2) * 128 + 1 * k.val = k.val; omega
    | ⟨1, _⟩ => show win0_1.index t (1 : Fin 2) * 128 + 1 * (y 1).val = win0_2.index t (1 : Fin 2) * 128 + 1 * (y 1).val; omega
  rw [h0, h1]

/-- An index of the result array is in point `t`'s block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v31).slice (win0_2.rect t)).set ↔ _
  rw [View.set_slice_whole, Rect.mem_set_unit]
  exact Iff.rfl

/-- Row `r` lies in block `r / 5000`: the blocks tile the array. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region: the whole product of the node features with the weights. -/
theorem final0 (V : (c : Dev nD) → (b : Ref sig .tc) → Buf (Elt Ideal) ((c : Thread nD τ).loc b)) (c : Dev nD) :
    (dat0 (F := Ideal) V c).arrAt 2 cfg0.N = Cert.Gcn.dense (V c main_arg0) (V c main_arg2) :=
  (dat0 (F := Ideal) V c).arrAt_eq_of_cover 2 (Cert.Gcn.dense (V c main_arg0) (V c main_arg2)) (fun t _ => flushed0 V c t) cover0

end Cert.Gcn.Layers

end
-- ==== Proof.Layer1.lean ====
/-
  Layer 2's fused step, block by block: add the previous layer's bias to the aggregated features, clamp below at
  zero, and multiply by the 128 × 128 weights.  The aggregated features are cut into 20 blocks of 5000 rows; the bias
  row and the weights are the same at every grid point.  Row r of block t is row 5000·t + r of the array, so what
  point t writes back is block t of `dense (biasRelu a b) w`; the blocks tile the rows, hence the whole array.
-/
import proofs.«154853_j13288628814527_1_alg».proof.Proof.Gen.KernelIdeal.Frame
import proofs.«154853_j13288628814527_1_alg».proof.Proof.GcnSpec
import proofs.«154853_j13288628814527_1_alg».proof.Proof.MatmulBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layers

open Idealize.ShloMosaic Idealize.ShloMosaic.TcCoe Idealize.SL.Sem Idealize.ShloMosaic.Pipeline
open Cert.KernelIdeal Cert.KernelIdeal.Gen Cert.Gcn.Block

theorem hz1 : (![0, 0] : Fin 2 → Nat) = fun _ => 0 := funext fun a => by fin_cases a <;> rfl

/-- The body's stored value at an entry of the block: over the 128 features, the clamped biased entry of the row
    times the weight column. -/
theorem pay1_apply (x0 : Vec Ideal S5000x128 .f32) (x1 : Vec Ideal S1x128 .f32) (x2 : Vec Ideal S128x128 .f32) (y : S5000x128.Idx) :
    k1_pay1 (F := Ideal) x0 x1 x2 y
      = ∑ k : Fin 128, FloatOps.mulf (F := Ideal) (φ := .f32) (FloatOps.maximumf (F := Ideal) (φ := .f32) (FloatOps.addf (F := Ideal) (φ := .f32) (x0 (brow y k)) (x1 (biasAt (brow y k)))) (FloatOps.ofBits (F := Ideal) .f32 0x00000000#32)) (x2 (bcol y k)) := by
  unfold k1_pay1
  refine (matmul_block _ _ y).trans ?_
  refine Finset.sum_congr rfl fun k _ => ?_
  exact congrArg (· * x2 (bcol y k)) (bias_relu_entry x0 x1 _ _ _ (brow y k))

/-- The index maps over the grid: the feature block and the result block move together along the rows; the bias row
    and the weights stay put; the block number stays below 20. -/
theorem idx_facts1 : ∀ t : Fin cfg1.N, win1_0.index t (0 : Fin 2) = win1_3.index t (0 : Fin 2)
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (1 : Fin 2) = 0
    ∧ win1_3.index t (0 : Fin 2) ≤ 19 :=
  (by decide +kernel : ∀ t : Fin grid1.N, _)

/-- Every one of the 20 row blocks is some point's. -/
theorem idx_onto1 : ∀ q : Fin 20, ∃ t : Fin cfg1.N, win1_3.index t = ![q.val, 0] :=
  (by decide +kernel : ∀ q : Fin 20, ∃ t : Fin grid1.N, win1_3.index t = ![q.val, 0])

/-- What point `t` writes back is block `t` of the whole layer. -/
theorem flushed1 (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal)
      (Cert.Gcn.dense (Cert.Gcn.biasRelu (V c main_v43) (Cert.Gcn.rowVec (V c main_v44))) (V c main_arg4)) := by
  show (cfg1.win 3).cut (grid1.coords t) ((dat1 (F := Ideal) V c).after 3 t) = _
  rw [after1_3]
  unfold out1_3
  rw [View.canon_unit_zero hz1]
  simp only [View.ld_unit_zero (S := S5000x128) hz1, View.ld_unit_zero (S := S1x128) hz1, View.ld_unit_zero (S := S128x128) hz1]
  obtain ⟨e0, e1, e2, e3, e4, e5, e6, e7⟩ := idx_facts1 t
  funext y
  refine (pay1_apply (iblk1 V c 0 t) (iblk1 V c 1 t) (iblk1 V c 2 t) y).trans ?_
  show (∑ k : Fin 128, FloatOps.mulf (F := Ideal) (φ := .f32) (FloatOps.maximumf (F := Ideal) (φ := .f32) (FloatOps.addf (F := Ideal) (φ := .f32) (V c main_v43 (((cfg1.win 0).blk t).view.emb (brow y k))) (V c main_v44 (((cfg1.win 1).blk t).view.emb (biasAt (brow y k))))) (FloatOps.ofBits (F := Ideal) .f32 0x00000000#32)) (V c main_arg4 (((cfg1.win 2).blk t).view.emb (bcol y k))))
    = ∑ k : Fin 128, FloatOps.mulf (F := Ideal) (φ := .f32) (Cert.Gcn.biasRelu (V c main_v43) (Cert.Gcn.rowVec (V c main_v44)) (Cert.Gcn.rowAt (((cfg1.win 3).blk t).view.emb y) k)) (V c main_arg4 (Cert.Gcn.colAt (((cfg1.win 3).blk t).view.emb y) k))
  refine Finset.sum_congr rfl fun k _ => ?_
  have h0 : (((cfg1.win 0).blk t).view.emb (brow y k)) = Cert.Gcn.rowAt (((cfg1.win 3).blk t).view.emb y) k := by
    funext a; apply Fin.ext
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have h1 : (((cfg1.win 1).blk t).view.emb (biasAt (brow y k))) = Cert.Gcn.rowIdx (Cert.Gcn.laneAt (Cert.Gcn.rowAt (((cfg1.win 3).blk t).view.emb y) k)) := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  have h2 : (((cfg1.win 2).blk t).view.emb (bcol y k)) = Cert.Gcn.colAt (((cfg1.win 3).blk t).view.emb y) k := by
    funext a; apply Fin.ext
    match a with
    | ⟨0, _⟩ => show win1_2.index t (0 : Fin 2) * 128 + 1 * k.val = k.val; omega
    | ⟨1, _⟩ => show win1_2.index t (1 : Fin 2) * 128 + 1 * (y 1).val = win1_3.index t (1 : Fin 2) * 128 + 1 * (y 1).val; omega
  rw [h0, h1, h2]
  rfl

/-- An index of the result array is in point `t`'s block iff each coordinate is in the block's range on its axis. -/
theorem mem_blk1 (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Row `r` lies in block `r / 5000`: the blocks tile the array. -/
theorem cover1 (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto1 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The result array after the region: the whole layer applied to the region's entry arrays. -/
theorem final1 (V : (c : Dev nD) → (b : Ref sig .tc) → Buf (Elt Ideal) ((c : Thread nD τ).loc b)) (c : Dev nD) :
    (dat1 (F := Ideal) V c).arrAt 3 cfg1.N = Cert.Gcn.dense (Cert.Gcn.biasRelu (V c main_v43) (Cert.Gcn.rowVec (V c main_v44))) (V c main_arg4) :=
  (dat1 (F := Ideal) V c).arrAt_eq_of_cover 3 (Cert.Gcn.dense (Cert.Gcn.biasRelu (V c main_v43) (Cert.Gcn.rowVec (V c main_v44))) (V c main_arg4)) (fun t _ => flushed1 V c t) cover1

end Cert.Gcn.Layers

end
-- ==== Proof.Layer2.lean ====
/-
  Layer 3's fused step, block by block: add the previous layer's bias to the aggregated features, clamp below at
  zero, and multiply by the 128 × 128 weights.  The aggregated features are cut into 20 blocks of 5000 rows; the bias
  row and the weights are the same at every grid point.  Row r of block t is row 5000·t + r of the array, so what
  point t writes back is block t of `dense (biasRelu a b) w`; the blocks tile the rows, hence the whole array.
-/
import proofs.«154853_j13288628814527_1_alg».proof.Proof.Gen.KernelIdeal.Frame
import proofs.«154853_j13288628814527_1_alg».proof.Proof.GcnSpec
import proofs.«154853_j13288628814527_1_alg».proof.Proof.MatmulBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layers

open Idealize.ShloMosaic Idealize.ShloMosaic.TcCoe Idealize.SL.Sem Idealize.ShloMosaic.Pipeline
open Cert.KernelIdeal Cert.KernelIdeal.Gen Cert.Gcn.Block

theorem hz2 : (![0, 0] : Fin 2 → Nat) = fun _ => 0 := funext fun a => by fin_cases a <;> rfl

/-- The body's stored value at an entry of the block: over the 128 features, the clamped biased entry of the row
    times the weight column. -/
theorem pay2_apply (x0 : Vec Ideal S5000x128 .f32) (x1 : Vec Ideal S1x128 .f32) (x2 : Vec Ideal S128x128 .f32) (y : S5000x128.Idx) :
    k2_pay1 (F := Ideal) x0 x1 x2 y
      = ∑ k : Fin 128, FloatOps.mulf (F := Ideal) (φ := .f32) (FloatOps.maximumf (F := Ideal) (φ := .f32) (FloatOps.addf (F := Ideal) (φ := .f32) (x0 (brow y k)) (x1 (biasAt (brow y k)))) (FloatOps.ofBits (F := Ideal) .f32 0x00000000#32)) (x2 (bcol y k)) := by
  unfold k2_pay1
  refine (matmul_block _ _ y).trans ?_
  refine Finset.sum_congr rfl fun k _ => ?_
  exact congrArg (· * x2 (bcol y k)) (bias_relu_entry x0 x1 _ _ _ (brow y k))

/-- The index maps over the grid: the feature block and the result block move together along the rows; the bias row
    and the weights stay put; the block number stays below 20. -/
theorem idx_facts2 : ∀ t : Fin cfg2.N, win2_0.index t (0 : Fin 2) = win2_3.index t (0 : Fin 2)
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (1 : Fin 2) = 0
    ∧ win2_3.index t (0 : Fin 2) ≤ 19 :=
  (by decide +kernel : ∀ t : Fin grid2.N, _)

/-- Every one of the 20 row blocks is some point's. -/
theorem idx_onto2 : ∀ q : Fin 20, ∃ t : Fin cfg2.N, win2_3.index t = ![q.val, 0] :=
  (by decide +kernel : ∀ q : Fin 20, ∃ t : Fin grid2.N, win2_3.index t = ![q.val, 0])

/-- What point `t` writes back is block `t` of the whole layer. -/
theorem flushed2 (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal)
      (Cert.Gcn.dense (Cert.Gcn.biasRelu (V c main_v57) (Cert.Gcn.rowVec (V c main_v58))) (V c main_arg6)) := by
  show (cfg2.win 3).cut (grid2.coords t) ((dat2 (F := Ideal) V c).after 3 t) = _
  rw [after2_3]
  unfold out2_3
  rw [View.canon_unit_zero hz2]
  simp only [View.ld_unit_zero (S := S5000x128) hz2, View.ld_unit_zero (S := S1x128) hz2, View.ld_unit_zero (S := S128x128) hz2]
  obtain ⟨e0, e1, e2, e3, e4, e5, e6, e7⟩ := idx_facts2 t
  funext y
  refine (pay2_apply (iblk2 V c 0 t) (iblk2 V c 1 t) (iblk2 V c 2 t) y).trans ?_
  show (∑ k : Fin 128, FloatOps.mulf (F := Ideal) (φ := .f32) (FloatOps.maximumf (F := Ideal) (φ := .f32) (FloatOps.addf (F := Ideal) (φ := .f32) (V c main_v57 (((cfg2.win 0).blk t).view.emb (brow y k))) (V c main_v58 (((cfg2.win 1).blk t).view.emb (biasAt (brow y k))))) (FloatOps.ofBits (F := Ideal) .f32 0x00000000#32)) (V c main_arg6 (((cfg2.win 2).blk t).view.emb (bcol y k))))
    = ∑ k : Fin 128, FloatOps.mulf (F := Ideal) (φ := .f32) (Cert.Gcn.biasRelu (V c main_v57) (Cert.Gcn.rowVec (V c main_v58)) (Cert.Gcn.rowAt (((cfg2.win 3).blk t).view.emb y) k)) (V c main_arg6 (Cert.Gcn.colAt (((cfg2.win 3).blk t).view.emb y) k))
  refine Finset.sum_congr rfl fun k _ => ?_
  have h0 : (((cfg2.win 0).blk t).view.emb (brow y k)) = Cert.Gcn.rowAt (((cfg2.win 3).blk t).view.emb y) k := by
    funext a; apply Fin.ext
    match a with
    | ⟨0, _⟩ => show win2_0.index t (0 : Fin 2) * 5000 + 1 * (y 0).val = win2_3.index t (0 : Fin 2) * 5000 + 1 * (y 0).val; omega
    | ⟨1, _⟩ => show win2_0.index t (1 : Fin 2) * 128 + 1 * k.val = k.val; omega
  have h1 : (((cfg2.win 1).blk t).view.emb (biasAt (brow y k))) = Cert.Gcn.rowIdx (Cert.Gcn.laneAt (Cert.Gcn.rowAt (((cfg2.win 3).blk t).view.emb y) k)) := by
    funext a; apply Fin.ext
    match a with
    | ⟨0, _⟩ => show win2_1.index t (0 : Fin 2) * 1 + 1 * 0 = 0; omega
    | ⟨1, _⟩ => show win2_1.index t (1 : Fin 2) * 128 + 1 * k.val = k.val; omega
  have h2 : (((cfg2.win 2).blk t).view.emb (bcol y k)) = Cert.Gcn.colAt (((cfg2.win 3).blk t).view.emb y) k := by
    funext a; apply Fin.ext
    match a with
    | ⟨0, _⟩ => show win2_2.index t (0 : Fin 2) * 128 + 1 * k.val = k.val; omega
    | ⟨1, _⟩ => show win2_2.index t (1 : Fin 2) * 128 + 1 * (y 1).val = win2_3.index t (1 : Fin 2) * 128 + 1 * (y 1).val; omega
  rw [h0, h1, h2]
  rfl

/-- An index of the result array is in point `t`'s block iff each coordinate is in the block's range on its axis. -/
theorem mem_blk2 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v59).slice (win2_3.rect t)).set ↔ _
  rw [View.set_slice_whole, Rect.mem_set_unit]
  exact Iff.rfl

/-- Row `r` lies in block `r / 5000`: the blocks tile the array. -/
theorem cover2 (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto2 ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- The result array after the region: the whole layer applied to the region's entry arrays. -/
theorem final2 (V : (c : Dev nD) → (b : Ref sig .tc) → Buf (Elt Ideal) ((c : Thread nD τ).loc b)) (c : Dev nD) :
    (dat2 (F := Ideal) V c).arrAt 3 cfg2.N = Cert.Gcn.dense (Cert.Gcn.biasRelu (V c main_v57) (Cert.Gcn.rowVec (V c main_v58))) (V c main_arg6) :=
  (dat2 (F := Ideal) V c).arrAt_eq_of_cover 3 (Cert.Gcn.dense (Cert.Gcn.biasRelu (V c main_v57) (Cert.Gcn.rowVec (V c main_v58))) (V c main_arg6)) (fun t _ => flushed2 V c t) cover2

end Cert.Gcn.Layers

end
-- ==== Proof.Layer3.lean ====
/-
  The first head layer, block by block: add the third graph layer's bias to the aggregated features, clamp below at
  zero, multiply by the 128 × 128 head weights, add the head's bias and clamp again.  The features are cut into 20
  blocks of 5000 rows; both bias rows and the weights are the same at every grid point.  Row r of block t is row
  5000·t + r of the array, so what point t writes back is block t of
  `biasRelu (dense (biasRelu a b) w) b'`; the blocks tile the rows, hence the whole array.
-/
import proofs.«154853_j13288628814527_1_alg».proof.Proof.Gen.KernelIdeal.Frame
import proofs.«154853_j13288628814527_1_alg».proof.Proof.GcnSpec
import proofs.«154853_j13288628814527_1_alg».proof.Proof.MatmulBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layers

open Idealize.ShloMosaic Idealize.ShloMosaic.TcCoe Idealize.SL.Sem Idealize.ShloMosaic.Pipeline
open Cert.KernelIdeal Cert.KernelIdeal.Gen Cert.Gcn.Block

theorem hz3 : (![0, 0] : Fin 2 → Nat) = fun _ => 0 := funext fun a => by fin_cases a <;> rfl

/-- The body's stored value at an entry of the block: the product's entry (over the 128 features, the clamped biased
    entry of the row times the weight column) plus the second bias of the entry's column, clamped below at zero. -/
theorem pay3_apply (x0 : Vec Ideal S5000x128 .f32) (x1 : Vec Ideal S1x128 .f32) (x2 : Vec Ideal S128x128 .f32) (x3 : Vec Ideal S1x128 .f32) (y : S5000x128.Idx) :
    k3_pay1 (F := Ideal) x0 x1 x2 x3 y
      = FloatOps.maximumf (F := Ideal) (φ := .f32) (FloatOps.addf (F := Ideal) (φ := .f32) (∑ k : Fin 128, FloatOps.mulf (F := Ideal) (φ := .f32) (FloatOps.maximumf (F := Ideal) (φ := .f32) (FloatOps.addf (F := Ideal) (φ := .f32) (x0 (brow y k)) (x1 (biasAt (brow y k)))) (FloatOps.ofBits (F := Ideal) .f32 0x00000000#32)) (x2 (bcol y k))) (x3 (biasAt y))) (FloatOps.ofBits (F := Ideal) .f32 0x00000000#32) := by
  unfold k3_pay1
  refine congrArg₂ (fun p q => FloatOps.maximumf (F := Ideal) (φ := .f32) (FloatOps.addf (F := Ideal) (φ := .f32) (p) (q)) (FloatOps.ofBits (F := Ideal) .f32 0x00000000#32)) ?_ ?_
  · refine (matmul_block _ _ y).trans ?_
    refine Finset.sum_congr rfl fun k _ => ?_
    exact congrArg (· * x2 (bcol y k)) (bias_relu_entry x0 x1 _ _ _ (brow y k))
  · rw [shapeCast_self]
    exact bias_bcast x3 _ y

/-- The index maps over the grid: the feature block and the result block move together along the rows; the two bias
    rows and the weights stay put; the block number stays below 20. -/
theorem idx_facts3 : ∀ t : Fin cfg3.N, win3_0.index t (0 : Fin 2) = win3_4.index t (0 : Fin 2)
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (1 : Fin 2) = 0
    ∧ win3_4.index t (0 : Fin 2) ≤ 19 :=
  (by decide +kernel : ∀ t : Fin grid3.N, _)

/-- Every one of the 20 row blocks is some point's. -/
theorem idx_onto3 : ∀ q : Fin 20, ∃ t : Fin cfg3.N, win3_4.index t = ![q.val, 0] :=
  (by decide +kernel : ∀ q : Fin 20, ∃ t : Fin grid3.N, win3_4.index t = ![q.val, 0])

/-- What point `t` writes back is block `t` of the whole layer. -/
theorem flushed3 (V : (c : Dev nD) → (b : Ref sig .tc) → Buf (Elt Ideal) ((c : Thread nD τ).loc b)) (c : Dev nD) (t : Fin cfg3.N) :
    (dat3 (F := Ideal) V c).flushed 4 t = ((cfg3.win 4).blk t).view.read (Elt Ideal)
      (Cert.Gcn.biasRelu (Cert.Gcn.dense (Cert.Gcn.biasRelu (V c main_v71) (Cert.Gcn.rowVec (V c main_v72))) (V c main_arg8)) (Cert.Gcn.rowVec (V c main_v73))) := by
  show (cfg3.win 4).cut (grid3.coords t) ((dat3 (F := Ideal) V c).after 4 t) = _
  rw [after3_4]
  unfold out3_4
  rw [View.canon_unit_zero hz3]
  simp only [View.ld_unit_zero (S := S5000x128) hz3, View.ld_unit_zero (S := S1x128) hz3, View.ld_unit_zero (S := S128x128) hz3]
  obtain ⟨e0, e1, e2, e3, e4, e5, e6, e7, e8, e9⟩ := idx_facts3 t
  funext y
  refine (pay3_apply (iblk3 V c 0 t) (iblk3 V c 1 t) (iblk3 V c 2 t) (iblk3 V c 3 t) y).trans ?_
  show FloatOps.maximumf (F := Ideal) (φ := .f32) (FloatOps.addf (F := Ideal) (φ := .f32) (∑ k : Fin 128, FloatOps.mulf (F := Ideal) (φ := .f32) (FloatOps.maximumf (F := Ideal) (φ := .f32) (FloatOps.addf (F := Ideal) (φ := .f32) (V c main_v71 (((cfg3.win 0).blk t).view.emb (brow y k))) (V c main_v72 (((cfg3.win 1).blk t).view.emb (biasAt (brow y k))))) (FloatOps.ofBits (F := Ideal) .f32 0x00000000#32)) (V c main_arg8 (((cfg3.win 2).blk t).view.emb (bcol y k)))) (V c main_v73 (((cfg3.win 3).blk t).view.emb (biasAt y)))) (FloatOps.ofBits (F := Ideal) .f32 0x00000000#32)
    = FloatOps.maximumf (F := Ideal) (φ := .f32) (FloatOps.addf (F := Ideal) (φ := .f32) (∑ k : Fin 128, FloatOps.mulf (F := Ideal) (φ := .f32) (Cert.Gcn.biasRelu (V c main_v71) (Cert.Gcn.rowVec (V c main_v72)) (Cert.Gcn.rowAt (((cfg3.win 4).blk t).view.emb y) k)) (V c main_arg8 (Cert.Gcn.colAt (((cfg3.win 4).blk t).view.emb y) k))) (V c main_v73 (Cert.Gcn.rowIdx (Cert.Gcn.laneAt (((cfg3.win 4).blk t).view.emb y))))) (FloatOps.ofBits (F := Ideal) .f32 0x00000000#32)
  have h3 : (((cfg3.win 3).blk t).view.emb (biasAt y)) = Cert.Gcn.rowIdx (Cert.Gcn.laneAt (((cfg3.win 4).blk t).view.emb y)) := by
    funext a; apply Fin.ext
    match a with
    | ⟨0, _⟩ => show win3_3.index t (0 : Fin 2) * 1 + 1 * 0 = 0; omega
    | ⟨1, _⟩ => show win3_3.index t (1 : Fin 2) * 128 + 1 * (y 1).val = win3_4.index t (1 : Fin 2) * 128 + 1 * (y 1).val; omega
  rw [h3]
  refine congrArg (fun s => FloatOps.maximumf (F := Ideal) (φ := .f32) (FloatOps.addf (F := Ideal) (φ := .f32) (s) (V c main_v73 (Cert.Gcn.rowIdx (Cert.Gcn.laneAt (((cfg3.win 4).blk t).view.emb y))))) (FloatOps.ofBits (F := Ideal) .f32 0x00000000#32)) ?_
  refine Finset.sum_congr rfl fun k _ => ?_
  have h0 : (((cfg3.win 0).blk t).view.emb (brow y k)) = Cert.Gcn.rowAt (((cfg3.win 4).blk t).view.emb y) k := by
    funext a; apply Fin.ext
    match a with
    | ⟨0, _⟩ => show win3_0.index t (0 : Fin 2) * 5000 + 1 * (y 0).val = win3_4.index t (0 : Fin 2) * 5000 + 1 * (y 0).val; omega
    | ⟨1, _⟩ => show win3_0.index t (1 : Fin 2) * 128 + 1 * k.val = k.val; omega
  have h1 : (((cfg3.win 1).blk t).view.emb (biasAt (brow y k))) = Cert.Gcn.rowIdx (Cert.Gcn.laneAt (Cert.Gcn.rowAt (((cfg3.win 4).blk t).view.emb y) k)) := by
    funext a; apply Fin.ext
    match a with
    | ⟨0, _⟩ => show win3_1.index t (0 : Fin 2) * 1 + 1 * 0 = 0; omega
    | ⟨1, _⟩ => show win3_1.index t (1 : Fin 2) * 128 + 1 * k.val = k.val; omega
  have h2 : (((cfg3.win 2).blk t).view.emb (bcol y k)) = Cert.Gcn.colAt (((cfg3.win 4).blk t).view.emb y) k := by
    funext a; apply Fin.ext
    match a with
    | ⟨0, _⟩ => show win3_2.index t (0 : Fin 2) * 128 + 1 * k.val = k.val; omega
    | ⟨1, _⟩ => show win3_2.index t (1 : Fin 2) * 128 + 1 * (y 1).val = win3_4.index t (1 : Fin 2) * 128 + 1 * (y 1).val; omega
  rw [h0, h1, h2]
  rfl

/-- An index of the result array is in point `t`'s block iff each coordinate is in the block's range on its axis. -/
theorem mem_blk3 (t : Fin cfg3.N) (i : S100000x128.Idx) :
    i ∈ ((cfg3.win 4).blk t).view.set ↔ ∀ a : Fin 2, win3_4.index t a * S5000x128.size a ≤ (i a).val ∧ (i a).val < win3_4.index t a * S5000x128.size a + S5000x128.size a := by
  show i ∈ ((View.whole main_v74).slice (win3_4.rect t)).set ↔ _
  rw [View.set_slice_whole, Rect.mem_set_unit]
  exact Iff.rfl

/-- Row `r` lies in block `r / 5000`: the blocks tile the array. -/
theorem cover3 (i : S100000x128.Idx) : ∃ t : Fin cfg3.N, (cfg3.win 4).flush t = true ∧ i ∈ ((cfg3.win 4).blk t).view.set := by
  have hi0 : (i 0).val < 100000 := (i 0).isLt
  have hi1 : (i 1).val < 128 := (i 1).isLt
  obtain ⟨t, ht⟩ := idx_onto3 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 128 ≤ (i 1).val ∧ (i 1).val < win3_4.index t (1 : Fin 2) * 128 + 128; omega

/-- The result array after the region: the whole head layer applied to the region's entry arrays. -/
theorem final3 (V : (c : Dev nD) → (b : Ref sig .tc) → Buf (Elt Ideal) ((c : Thread nD τ).loc b)) (c : Dev nD) :
    (dat3 (F := Ideal) V c).arrAt 4 cfg3.N = Cert.Gcn.biasRelu (Cert.Gcn.dense (Cert.Gcn.biasRelu (V c main_v71) (Cert.Gcn.rowVec (V c main_v72))) (V c main_arg8)) (Cert.Gcn.rowVec (V c main_v73)) :=
  (dat3 (F := Ideal) V c).arrAt_eq_of_cover 4 (Cert.Gcn.biasRelu (Cert.Gcn.dense (Cert.Gcn.biasRelu (V c main_v71) (Cert.Gcn.rowVec (V c main_v72))) (V c main_arg8)) (Cert.Gcn.rowVec (V c main_v73))) (fun t _ => flushed3 V c t) cover3

end Cert.Gcn.Layers

end
-- ==== Proof.Layer4.lean ====
/-
  The last layer, block by block: multiply the head's hidden features by the 128 × 10 weights and add the class bias.
  The features are cut into 20 blocks of 5000 rows; the weights and the bias row are the same at every grid point.
  Row r of block t is row 5000·t + r of the array, so what point t writes back is block t of
  `addBias10 (dense10 a w) b`; the blocks tile the rows, hence the whole array of class scores.
-/
import proofs.«154853_j13288628814527_1_alg».proof.Proof.Gen.KernelIdeal.Frame
import proofs.«154853_j13288628814527_1_alg».proof.Proof.GcnSpec
import proofs.«154853_j13288628814527_1_alg».proof.Proof.MatmulBlock
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Layers

open Idealize.ShloMosaic Idealize.ShloMosaic.TcCoe Idealize.SL.Sem Idealize.ShloMosaic.Pipeline
open Cert.KernelIdeal Cert.KernelIdeal.Gen Cert.Gcn.Block

theorem hz4 : (![0, 0] : Fin 2 → Nat) = fun _ => 0 := funext fun a => by fin_cases a <;> rfl

/-- The body's stored value at an entry of the block: the row of the feature block times the class's weight column,
    plus the class's bias. -/
theorem pay4_apply (x0 : Vec Ideal S5000x128 .f32) (x1 : Vec Ideal S128x10 .f32) (x2 : Vec Ideal S1x10 .f32) (y : S5000x10.Idx) :
    k4_pay1 (F := Ideal) x0 x1 x2 y = FloatOps.addf (F := Ideal) (φ := .f32) (∑ k : Fin 128, FloatOps.mulf (F := Ideal) (φ := .f32) (x0 (brow10 y k)) (x1 (bcol10 y k))) (x2 (biasAt10 y)) := by
  unfold k4_pay1
  refine congrArg₂ (fun p q => FloatOps.addf (F := Ideal) (φ := .f32) (p) (q)) ?_ ?_
  · rw [shapeCast_self]
    exact matmul_block10 _ _ y
  · rw [shapeCast_self]
    exact bias_bcast10 x2 _ y

/-- The index maps over the grid: the feature block and the result block move together along the rows; the weights
    and the bias row stay put; the block number stays below 20. -/
theorem idx_facts4 : ∀ t : Fin cfg4.N, win4_0.index t (0 : Fin 2) = win4_3.index t (0 : Fin 2)
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (1 : Fin 2) = 0
    ∧ win4_3.index t (0 : Fin 2) ≤ 19 :=
  (by decide +kernel : ∀ t : Fin grid4.N, _)

/-- Every one of the 20 row blocks is some point's. -/
theorem idx_onto4 : ∀ q : Fin 20, ∃ t : Fin cfg4.N, win4_3.index t = ![q.val, 0] :=
  (by decide +kernel : ∀ q : Fin 20, ∃ t : Fin grid4.N, win4_3.index t = ![q.val, 0])

/-- What point `t` writes back is block `t` of the whole layer. -/
theorem flushed4 (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal)
      (Cert.Gcn.addBias10 (Cert.Gcn.dense10 (V c main_v74) (V c main_arg10)) (Cert.Gcn.rowVec10 (V c main_v75))) := by
  show (cfg4.win 3).cut (grid4.coords t) ((dat4 (F := Ideal) V c).after 3 t) = _
  rw [after4_3]
  unfold out4_3
  rw [View.canon_unit_zero hz4]
  simp only [View.ld_unit_zero (S := S5000x128) hz4, View.ld_unit_zero (S := S128x10) hz4, View.ld_unit_zero (S := S1x10) hz4]
  obtain ⟨e0, e1, e2, e3, e4, e5, e6, e7⟩ := idx_facts4 t
  funext y
  refine (pay4_apply (iblk4 V c 0 t) (iblk4 V c 1 t) (iblk4 V c 2 t) y).trans ?_
  show FloatOps.addf (F := Ideal) (φ := .f32) (∑ k : Fin 128, FloatOps.mulf (F := Ideal) (φ := .f32) (V c main_v74 (((cfg4.win 0).blk t).view.emb (brow10 y k))) (V c main_arg10 (((cfg4.win 1).blk t).view.emb (bcol10 y k)))) (V c main_v75 (((cfg4.win 2).blk t).view.emb (biasAt10 y)))
    = FloatOps.addf (F := Ideal) (φ := .f32) (∑ k : Fin 128, FloatOps.mulf (F := Ideal) (φ := .f32) (V c main_v74 (Cert.Gcn.rowAt10 (((cfg4.win 3).blk t).view.emb y) k)) (V c main_arg10 (Cert.Gcn.colAt10 (((cfg4.win 3).blk t).view.emb y) k))) (V c main_v75 (Cert.Gcn.rowIdx10 (Cert.Gcn.laneAt10 (((cfg4.win 3).blk t).view.emb y))))
  have h2 : (((cfg4.win 2).blk t).view.emb (biasAt10 y)) = Cert.Gcn.rowIdx10 (Cert.Gcn.laneAt10 (((cfg4.win 3).blk t).view.emb y)) := by
    funext a; apply Fin.ext
    match a with
    | ⟨0, _⟩ => show win4_2.index t (0 : Fin 2) * 1 + 1 * 0 = 0; omega
    | ⟨1, _⟩ => show win4_2.index t (1 : Fin 2) * 10 + 1 * (y 1).val = win4_3.index t (1 : Fin 2) * 10 + 1 * (y 1).val; omega
  rw [h2]
  refine congrArg (fun s => FloatOps.addf (F := Ideal) (φ := .f32) (s) (V c main_v75 (Cert.Gcn.rowIdx10 (Cert.Gcn.laneAt10 (((cfg4.win 3).blk t).view.emb y))))) ?_
  refine Finset.sum_congr rfl fun k _ => ?_
  have h0 : (((cfg4.win 0).blk t).view.emb (brow10 y k)) = Cert.Gcn.rowAt10 (((cfg4.win 3).blk t).view.emb y) k := by
    funext a; apply Fin.ext
    match a with
    | ⟨0, _⟩ => show win4_0.index t (0 : Fin 2) * 5000 + 1 * (y 0).val = win4_3.index t (0 : Fin 2) * 5000 + 1 * (y 0).val; omega
    | ⟨1, _⟩ => show win4_0.index t (1 : Fin 2) * 128 + 1 * k.val = k.val; omega
  have h1 : (((cfg4.win 1).blk t).view.emb (bcol10 y k)) = Cert.Gcn.colAt10 (((cfg4.win 3).blk t).view.emb y) k := by
    funext a; apply Fin.ext
    match a with
    | ⟨0, _⟩ => show win4_1.index t (0 : Fin 2) * 128 + 1 * k.val = k.val; omega
    | ⟨1, _⟩ => show win4_1.index t (1 : Fin 2) * 10 + 1 * (y 1).val = win4_3.index t (1 : Fin 2) * 10 + 1 * (y 1).val; omega
  rw [h0, h1]

/-- An index of the result array is in point `t`'s block iff each coordinate is in the block's range on its axis. -/
theorem mem_blk4 (t : Fin cfg4.N) (i : S100000x10.Idx) :
    i ∈ ((cfg4.win 3).blk t).view.set ↔ ∀ a : Fin 2, win4_3.index t a * S5000x10.size a ≤ (i a).val ∧ (i a).val < win4_3.index t a * S5000x10.size a + S5000x10.size a := by
  show i ∈ ((View.whole main_v76).slice (win4_3.rect t)).set ↔ _
  rw [View.set_slice_whole, Rect.mem_set_unit]
  exact Iff.rfl

/-- Row `r` lies in block `r / 5000`: the blocks tile the array. -/
theorem cover4 (i : S100000x10.Idx) : ∃ t : Fin cfg4.N, (cfg4.win 3).flush t = true ∧ i ∈ ((cfg4.win 3).blk t).view.set := by
  have hi0 : (i 0).val < 100000 := (i 0).isLt
  have hi1 : (i 1).val < 10 := (i 1).isLt
  obtain ⟨t, ht⟩ := idx_onto4 ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk4]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 10 ≤ (i 1).val ∧ (i 1).val < win4_3.index t (1 : Fin 2) * 10 + 10; omega

/-- The result array after the region: the class scores of the region's entry arrays. -/
theorem final4 (V : (c : Dev nD) → (b : Ref sig .tc) → Buf (Elt Ideal) ((c : Thread nD τ).loc b)) (c : Dev nD) :
    (dat4 (F := Ideal) V c).arrAt 3 cfg4.N = Cert.Gcn.addBias10 (Cert.Gcn.dense10 (V c main_v74) (V c main_arg10)) (Cert.Gcn.rowVec10 (V c main_v75)) :=
  (dat4 (F := Ideal) V c).arrAt_eq_of_cover 3 (Cert.Gcn.addBias10 (Cert.Gcn.dense10 (V c main_v74) (V c main_arg10)) (Cert.Gcn.rowVec10 (V c main_v75))) (fun t _ => flushed4 V c t) cover4

end Cert.Gcn.Layers

end
-- ==== Proof.GcnNetwork.lean ====
/-
  The whole network.  `aggregate e h` is the normalised neighbourhood sum of the rows of `h` along the edges `e`
  (self-loops added): gather the source rows, scale each by d(src)^(-1/2) · d(dst)^(-1/2) — d the in-degree counting
  the self-loop, the factor 0 where the degree is not positive —, and scatter-add at the targets into zeros.  It is
  spelt with the reference's own index and normalisation stages and is never opened: on both sides it is one function
  applied to equal arguments.  `network` is three rounds of (dense, aggregate, bias, clamp) followed by the two-layer
  head, as one function of the twelve arguments.
-/
import proofs.«154853_j13288628814527_1_alg».proof.Proof.GcnSpec
import proofs.«154853_j13288628814527_1_alg».proof.Proof.RefReadP

noncomputable section

namespace Cert.Gcn

open Idealize.ShloMosaic Cert.ReferenceIdeal Cert.ReferenceIdeal.ReadP

/-- The normalised neighbourhood sum along the edge list `e` (with self-loops): rows of `h` gathered at the edge
    sources, each scaled by the product of the inverse square roots of the two end points' degrees, and
    scatter-added at the edge targets into zeros. -/
def aggregate (e : (⟨S2x1600000, .i32⟩ : BufTy).Contents (Elt Ideal)) (h : FVec Ideal S100000x128 .f32) : FVec Ideal S100000x128 .f32 :=
  Host.scatterAdd scatter_S100000x128_S1700000x1_S1700000x128_1_0_0_1 (val_main_v41 (F := Ideal)) (val_main_v42 (F := Ideal) e)
    (mulf (Host.gather gather_S100000x128_S1700000x1_S1700000x128_1_0_n_n_0_1_1128 h (val_main_v36 (F := Ideal) e)) (val_main_v39 (F := Ideal) e))

/-- The whole network: the class scores as one function of the twelve arguments. -/
def network (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) : FVec Ideal S100000x10 .f32 :=
  addBias10 (dense10 (biasRelu (dense (biasRelu (aggregate x1 (dense (biasRelu (aggregate x1 (dense (biasRelu (aggregate x1 (dense x0 x2)) x3) x4)) x5) x6)) x7) x8) x9) x10) x11

end Cert.Gcn

end
-- ==== Proof.KernelFold.lean ====
/-
  The kernel program's result as one function of its twelve arguments.

  The program runs five regions among six stretches of host operations; the buffer contents at the twelve
  boundaries are a fold `W0 … W12` from the launch memory.  Each region's exit array is a whole-array function of
  its entry contents (the layer theorems); each host stretch either leaves a buffer alone or writes it with a
  closed term of the buffers it reads.  Walking the result buffer back through the fold:

    * the first three stretches compute, from the edge list alone, the edge sources, the edge targets (both with
      the self-loops appended) and the per-edge normalisation d(src)^(-1/2) · d(dst)^(-1/2);
    * region 0 multiplies the node features by the first weight matrix;
    * each of the next three stretches gathers the previous region's rows at the sources, scales them, and
      scatter-adds them at the targets — the normalised neighbourhood sum —, and reshapes the next bias vector to
      a row;
    * regions 1, 2, 3 add the bias, clamp at zero and multiply by the next weight matrix (region 3 also adds the
      fourth bias and clamps again); region 4 is the last product plus its bias.

  The neighbourhood sum is never opened: the kernel's stretch and `aggregate` apply the same scatter and gather to
  equal arguments.
-/
import proofs.«154853_j13288628814527_1_alg».proof.Proof.KernelRun
import proofs.«154853_j13288628814527_1_alg».proof.Proof.Layer0
import proofs.«154853_j13288628814527_1_alg».proof.Proof.Layer1
import proofs.«154853_j13288628814527_1_alg».proof.Proof.Layer2
import proofs.«154853_j13288628814527_1_alg».proof.Proof.Layer3
import proofs.«154853_j13288628814527_1_alg».proof.Proof.Layer4
import proofs.«154853_j13288628814527_1_alg».proof.Proof.GcnSpec
import proofs.«154853_j13288628814527_1_alg».proof.Proof.GcnNetwork

set_option maxRecDepth 16384

noncomputable section

namespace Cert.Gcn

open Idealize.ShloMosaic Idealize.ShloMosaic.TcCoe Idealize.SL.Sem Idealize.ShloMosaic.Pipeline
open Cert.KernelIdeal Cert.KernelIdeal.Gen
open Cert.ReferenceIdeal.ReadP (val_main_v3 val_main_v6 val_main_v12 val_main_v13 val_main_cst_2 val_main_v14 val_main_v38)

/-- A buffer that no operation of a host stretch writes holds after the stretch what it held before. -/
macro "host_keeps" : tactic =>
  `(tactic| (refine StableHlo.after_of_forall_not_mem _ _ (List.forall_iff_forall_mem.mp ?_)
             simp only [hostOps0, hostOps0_1, hostOps0_2, hostOps1, hostOps2, hostOps3, hostOps4, List.Forall,
               StableHlo.nullary_writes, StableHlo.unary_writes, StableHlo.binary_writes, StableHlo.ternary_writes,
               StableHlo.reshape_writes, Finset.mem_singleton]
             repeat' apply And.intro
             all_goals exact StableHlo.devRef_ne_of_ne (by decide)))

/-! ## A bias vector reshaped to a row, read back as a vector -/

theorem rowVec_shapeCast (x : FVec Ideal Cert.ReferenceIdeal.S128 .f32)
    (h : Cert.ReferenceIdeal.S128.ShapeCasts Cert.ReferenceIdeal.S1x128) :
    rowVec (shapeCast Cert.ReferenceIdeal.S1x128 x h) = x := by
  funext j
  unfold rowVec
  exact shapeCast_apply x h (rowIdx j) j
    (by rewrite [Shape.rowMajor_val_one, Shape.rowMajor_val_two]; show (j 0).val = 0 * 128 + (j 0).val; omega)

theorem rowVec10_shapeCast (x : FVec Ideal Cert.ReferenceIdeal.S10 .f32)
    (h : Cert.ReferenceIdeal.S10.ShapeCasts Cert.ReferenceIdeal.S1x10) :
    rowVec10 (shapeCast Cert.ReferenceIdeal.S1x10 x h) = x := by
  funext j
  unfold rowVec10
  exact shapeCast_apply x h (rowIdx10 j) j
    (by rewrite [Shape.rowMajor_val_one, Shape.rowMajor_val_two]; show (j 0).val = 0 * 10 + (j 0).val; omega)

/-! ## The host stretches, each at any contents `W` of the buffers it reads

First the kernel program's own spelling of the chains its stretches apply: the clamp "where the degree is positive",
the per-edge normalisation, and the neighbourhood sum. -/

/-- Negative node numbers wrapped around (a gather's index convention). -/
def kWrap (s : (⟨S1700000, .i32⟩ : BufTy).Contents (Elt Ideal)) : (⟨S1700000, .i32⟩ : BufTy).Contents (Elt Ideal) :=
  select (cmpi .slt s (broadcastInDim S1700000 ![] bcast_S_S1700000 (constantI S_ 32 0#32)))
    (addi s (broadcastInDim S1700000 ![] bcast_S_S1700000 (constantI S_ 32 100000#32))) s

/-- The inverse square root of the degree where the degree is positive, zero elsewhere. -/
def kSel (p : (⟨S100000, .i1⟩ : BufTy).Contents (Elt Ideal)) (r : (⟨S100000, .f32⟩ : BufTy).Contents (Elt Ideal)) (z : (⟨S_, .f32⟩ : BufTy).Contents (Elt Ideal)) : (⟨S100000, .f32⟩ : BufTy).Contents (Elt Ideal) :=
  select p r (broadcastInDim S100000 ![] bcast_S_S100000 (id z))

/-- The per-edge normalisation: the product of the two end points' inverse square root degrees, as a column. -/
def kNorm (s d : (⟨S1700000, .i32⟩ : BufTy).Contents (Elt Ideal)) (r : (⟨S100000, .f32⟩ : BufTy).Contents (Elt Ideal)) : (⟨S1700000x1, .f32⟩ : BufTy).Contents (Elt Ideal) :=
  broadcastInDim S1700000x1 ![0] bcast_S1700000_S1700000x1_0
    (mulf (F := Ideal) (φ := .f32)
      (Host.gather gather_S100000_S1700000x1_S1700000_n_0_n_n_0_1_1 r (broadcastInDim S1700000x1 ![0] bcast_S1700000_S1700000x1_0 (kWrap s)))
      (Host.gather gather_S100000_S1700000x1_S1700000_n_0_n_n_0_1_1 r (broadcastInDim S1700000x1 ![0] bcast_S1700000_S1700000x1_0 (kWrap d))))

/-- The neighbourhood sum as the kernel program spells it: rows of `h` gathered at the sources `s`, scaled by the
    normalisation `nrm`, scatter-added at the targets `d` into zeros. -/
def kAgg (s d : (⟨S1700000, .i32⟩ : BufTy).Contents (Elt Ideal)) (nrm : (⟨S1700000x1, .f32⟩ : BufTy).Contents (Elt Ideal)) (h : (⟨S100000x128, .f32⟩ : BufTy).Contents (Elt Ideal)) : (⟨S100000x128, .f32⟩ : BufTy).Contents (Elt Ideal) :=
  Host.scatterAdd (F := Ideal) scatter_S100000x128_S1700000x1_S1700000x128_1_0_0_1
    (broadcastInDim S100000x128 ![] bcast_S_S100000x128 (constant (F := Ideal) S_ .f32 0x00000000#32))
    (broadcastInDim S1700000x1 ![0] bcast_S1700000_S1700000x1_0 d)
    (mulf (F := Ideal) (φ := .f32)
      (Host.gather gather_S100000x128_S1700000x1_S1700000x128_1_0_n_n_0_1_1128 h (broadcastInDim S1700000x1 ![0] bcast_S1700000_S1700000x1_0 (kWrap s)))
      (broadcastInDim S1700000x128 ![0, 1] bcast_S1700000x1_S1700000x128_0_1 nrm))

/-- The network with the neighbourhood sum in the kernel program's spelling, over any sources, targets and
    normalisation. -/
def kNetwork (s d : (⟨S1700000, .i32⟩ : BufTy).Contents (Elt Ideal)) (nrm : (⟨S1700000x1, .f32⟩ : BufTy).Contents (Elt Ideal))
    (x0 : (⟨S100000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) :
    FVec Ideal Cert.ReferenceIdeal.S100000x10 .f32 :=
  addBias10 (dense10 (biasRelu (dense (biasRelu (kAgg s d nrm (dense (biasRelu (kAgg s d nrm (dense (biasRelu (kAgg s d nrm (dense x0 x2)) x3) x4)) x5) x6)) x7) x8) x9) x10) x11

section Stretches
variable (W : Valuation τ sig (Elt Ideal))

theorem read_v14 : StableHlo.after (hostOps0_1 (F := Ideal)) W (Proc.devRef .tc main_v14)
    = kSel (W (Proc.devRef .tc main_v12)) (W (Proc.devRef .tc main_v13)) (W (Proc.devRef .tc main_cst_2)) := by
  simp only [hostOps0_1]; after_results; rfl
theorem read_v30 : StableHlo.after (hostOps0_2 (F := Ideal)) W (Proc.devRef .tc main_v30)
    = kNorm (W (Proc.devRef .tc main_v3)) (W (Proc.devRef .tc main_v6)) (W (Proc.devRef .tc main_v14)) := by
  simp only [hostOps0_2]; after_results_simp; rfl
theorem read_v43 : StableHlo.after (hostOps1 (F := Ideal)) W (Proc.devRef .tc main_v43)
    = kAgg (W (Proc.devRef .tc main_v3)) (W (Proc.devRef .tc main_v6)) (W (Proc.devRef .tc main_v30)) (W (Proc.devRef .tc main_v31)) := by
  simp only [hostOps1]; after_results_simp; rfl
theorem read_v44 : StableHlo.after (hostOps1 (F := Ideal)) W (Proc.devRef .tc main_v44)
    = shapeCast S1x128 (W (Proc.devRef .tc main_arg3)) shapeCasts_S128_S1x128 := by
  simp only [hostOps1]; after_results; rfl
theorem read_v57 : StableHlo.after (hostOps2 (F := Ideal)) W (Proc.devRef .tc main_v57)
    = kAgg (W (Proc.devRef .tc main_v3)) (W (Proc.devRef .tc main_v6)) (W (Proc.devRef .tc main_v30)) (W (Proc.devRef .tc main_v45)) := by
  simp only [hostOps2]; after_results_simp; rfl
theorem read_v58 : StableHlo.after (hostOps2 (F := Ideal)) W (Proc.devRef .tc main_v58)
    = shapeCast S1x128 (W (Proc.devRef .tc main_arg5)) shapeCasts_S128_S1x128 := by
  simp only [hostOps2]; after_results; rfl
theorem read_v71 : StableHlo.after (hostOps3 (F := Ideal)) W (Proc.devRef .tc main_v71)
    = kAgg (W (Proc.devRef .tc main_v3)) (W (Proc.devRef .tc main_v6)) (W (Proc.devRef .tc main_v30)) (W (Proc.devRef .tc main_v59)) := by
  simp only [hostOps3]; after_results_simp; rfl
theorem read_v72 : StableHlo.after (hostOps3 (F := Ideal)) W (Proc.devRef .tc main_v72)
    = shapeCast S1x128 (W (Proc.devRef .tc main_arg7)) shapeCasts_S128_S1x128 := by
  simp only [hostOps3]; after_results; rfl
theorem read_v73 : StableHlo.after (hostOps3 (F := Ideal)) W (Proc.devRef .tc main_v73)
    = shapeCast S1x128 (W (Proc.devRef .tc main_arg9)) shapeCasts_S128_S1x128 := by
  simp only [hostOps3]; after_results; rfl
theorem read_v75 : StableHlo.after (hostOps4 (F := Ideal)) W (Proc.devRef .tc main_v75)
    = shapeCast S1x10 (W (Proc.devRef .tc main_arg11)) shapeCasts_S10_S1x10 := by
  simp only [hostOps4]; after_results; rfl

end Stretches

/-! ## The fold, boundary by boundary -/

section Fold
variable (m : (ℓ : Loc nD τ sig) → Buf (Elt Ideal) ℓ) (ρ : Dev nD → PrngReg) (c : Dev nD)

/-! ### Buffers carried unchanged across boundaries -/

theorem keep_arg0_3_0 : W3 m ρ c (Proc.devRef .tc main_arg0) = W0 m ρ c (Proc.devRef .tc main_arg0) :=
  calc W3 m ρ c (Proc.devRef .tc main_arg0)
    _ = W2 m ρ c (Proc.devRef .tc main_arg0) := by host_keeps
    _ = W1 m ρ c (Proc.devRef .tc main_arg0) := by host_keeps
    _ = W0 m ρ c (Proc.devRef .tc main_arg0) := by host_keeps
theorem keep_arg2_3_0 : W3 m ρ c (Proc.devRef .tc main_arg2) = W0 m ρ c (Proc.devRef .tc main_arg2) :=
  calc W3 m ρ c (Proc.devRef .tc main_arg2)
    _ = W2 m ρ c (Proc.devRef .tc main_arg2) := by host_keeps
    _ = W1 m ρ c (Proc.devRef .tc main_arg2) := by host_keeps
    _ = W0 m ρ c (Proc.devRef .tc main_arg2) := by host_keeps
theorem keep_arg3_4_0 : W4 m ρ c (Proc.devRef .tc main_arg3) = W0 m ρ c (Proc.devRef .tc main_arg3) :=
  calc W4 m ρ c (Proc.devRef .tc main_arg3)
    _ = W3 m ρ c (Proc.devRef .tc main_arg3) := W4_of_ne m ρ c main_arg3 (by decide)
    _ = W2 m ρ c (Proc.devRef .tc main_arg3) := by host_keeps
    _ = W1 m ρ c (Proc.devRef .tc main_arg3) := by host_keeps
    _ = W0 m ρ c (Proc.devRef .tc main_arg3) := by host_keeps
theorem keep_arg4_5_0 : W5 m ρ c (Proc.devRef .tc main_arg4) = W0 m ρ c (Proc.devRef .tc main_arg4) :=
  calc W5 m ρ c (Proc.devRef .tc main_arg4)
    _ = W4 m ρ c (Proc.devRef .tc main_arg4) := by host_keeps
    _ = W3 m ρ c (Proc.devRef .tc main_arg4) := W4_of_ne m ρ c main_arg4 (by decide)
    _ = W2 m ρ c (Proc.devRef .tc main_arg4) := by host_keeps
    _ = W1 m ρ c (Proc.devRef .tc main_arg4) := by host_keeps
    _ = W0 m ρ c (Proc.devRef .tc main_arg4) := by host_keeps
theorem keep_arg5_6_0 : W6 m ρ c (Proc.devRef .tc main_arg5) = W0 m ρ c (Proc.devRef .tc main_arg5) :=
  calc W6 m ρ c (Proc.devRef .tc main_arg5)
    _ = W5 m ρ c (Proc.devRef .tc main_arg5) := W6_of_ne m ρ c main_arg5 (by decide)
    _ = W4 m ρ c (Proc.devRef .tc main_arg5) := by host_keeps
    _ = W3 m ρ c (Proc.devRef .tc main_arg5) := W4_of_ne m ρ c main_arg5 (by decide)
    _ = W2 m ρ c (Proc.devRef .tc main_arg5) := by host_keeps
    _ = W1 m ρ c (Proc.devRef .tc main_arg5) := by host_keeps
    _ = W0 m ρ c (Proc.devRef .tc main_arg5) := by host_keeps
theorem keep_arg6_7_0 : W7 m ρ c (Proc.devRef .tc main_arg6) = W0 m ρ c (Proc.devRef .tc main_arg6) :=
  calc W7 m ρ c (Proc.devRef .tc main_arg6)
    _ = W6 m ρ c (Proc.devRef .tc main_arg6) := by host_keeps
    _ = W5 m ρ c (Proc.devRef .tc main_arg6) := W6_of_ne m ρ c main_arg6 (by decide)
    _ = W4 m ρ c (Proc.devRef .tc main_arg6) := by host_keeps
    _ = W3 m ρ c (Proc.devRef .tc main_arg6) := W4_of_ne m ρ c main_arg6 (by decide)
    _ = W2 m ρ c (Proc.devRef .tc main_arg6) := by host_keeps
    _ = W1 m ρ c (Proc.devRef .tc main_arg6) := by host_keeps
    _ = W0 m ρ c (Proc.devRef .tc main_arg6) := by host_keeps
theorem keep_arg7_8_0 : W8 m ρ c (Proc.devRef .tc main_arg7) = W0 m ρ c (Proc.devRef .tc main_arg7) :=
  calc W8 m ρ c (Proc.devRef .tc main_arg7)
    _ = W7 m ρ c (Proc.devRef .tc main_arg7) := W8_of_ne m ρ c main_arg7 (by decide)
    _ = W6 m ρ c (Proc.devRef .tc main_arg7) := by host_keeps
    _ = W5 m ρ c (Proc.devRef .tc main_arg7) := W6_of_ne m ρ c main_arg7 (by decide)
    _ = W4 m ρ c (Proc.devRef .tc main_arg7) := by host_keeps
    _ = W3 m ρ c (Proc.devRef .tc main_arg7) := W4_of_ne m ρ c main_arg7 (by decide)
    _ = W2 m ρ c (Proc.devRef .tc main_arg7) := by host_keeps
    _ = W1 m ρ c (Proc.devRef .tc main_arg7) := by host_keeps
    _ = W0 m ρ c (Proc.devRef .tc main_arg7) := by host_keeps
theorem keep_arg9_8_0 : W8 m ρ c (Proc.devRef .tc main_arg9) = W0 m ρ c (Proc.devRef .tc main_arg9) :=
  calc W8 m ρ c (Proc.devRef .tc main_arg9)
    _ = W7 m ρ c (Proc.devRef .tc main_arg9) := W8_of_ne m ρ c main_arg9 (by decide)
    _ = W6 m ρ c (Proc.devRef .tc main_arg9) := by host_keeps
    _ = W5 m ρ c (Proc.devRef .tc main_arg9) := W6_of_ne m ρ c main_arg9 (by decide)
    _ = W4 m ρ c (Proc.devRef .tc main_arg9) := by host_keeps
    _ = W3 m ρ c (Proc.devRef .tc main_arg9) := W4_of_ne m ρ c main_arg9 (by decide)
    _ = W2 m ρ c (Proc.devRef .tc main_arg9) := by host_keeps
    _ = W1 m ρ c (Proc.devRef .tc main_arg9) := by host_keeps
    _ = W0 m ρ c (Proc.devRef .tc main_arg9) := by host_keeps
theorem keep_arg8_9_0 : W9 m ρ c (Proc.devRef .tc main_arg8) = W0 m ρ c (Proc.devRef .tc main_arg8) :=
  calc W9 m ρ c (Proc.devRef .tc main_arg8)
    _ = W8 m ρ c (Proc.devRef .tc main_arg8) := by host_keeps
    _ = W7 m ρ c (Proc.devRef .tc main_arg8) := W8_of_ne m ρ c main_arg8 (by decide)
    _ = W6 m ρ c (Proc.devRef .tc main_arg8) := by host_keeps
    _ = W5 m ρ c (Proc.devRef .tc main_arg8) := W6_of_ne m ρ c main_arg8 (by decide)
    _ = W4 m ρ c (Proc.devRef .tc main_arg8) := by host_keeps
    _ = W3 m ρ c (Proc.devRef .tc main_arg8) := W4_of_ne m ρ c main_arg8 (by decide)
    _ = W2 m ρ c (Proc.devRef .tc main_arg8) := by host_keeps
    _ = W1 m ρ c (Proc.devRef .tc main_arg8) := by host_keeps
    _ = W0 m ρ c (Proc.devRef .tc main_arg8) := by host_keeps
theorem keep_arg11_10_0 : W10 m ρ c (Proc.devRef .tc main_arg11) = W0 m ρ c (Proc.devRef .tc main_arg11) :=
  calc W10 m ρ c (Proc.devRef .tc main_arg11)
    _ = W9 m ρ c (Proc.devRef .tc main_arg11) := W10_of_ne m ρ c main_arg11 (by decide)
    _ = W8 m ρ c (Proc.devRef .tc main_arg11) := by host_keeps
    _ = W7 m ρ c (Proc.devRef .tc main_arg11) := W8_of_ne m ρ c main_arg11 (by decide)
    _ = W6 m ρ c (Proc.devRef .tc main_arg11) := by host_keeps
    _ = W5 m ρ c (Proc.devRef .tc main_arg11) := W6_of_ne m ρ c main_arg11 (by decide)
    _ = W4 m ρ c (Proc.devRef .tc main_arg11) := by host_keeps
    _ = W3 m ρ c (Proc.devRef .tc main_arg11) := W4_of_ne m ρ c main_arg11 (by decide)
    _ = W2 m ρ c (Proc.devRef .tc main_arg11) := by host_keeps
    _ = W1 m ρ c (Proc.devRef .tc main_arg11) := by host_keeps
    _ = W0 m ρ c (Proc.devRef .tc main_arg11) := by host_keeps
theorem keep_arg10_11_0 : W11 m ρ c (Proc.devRef .tc main_arg10) = W0 m ρ c (Proc.devRef .tc main_arg10) :=
  calc W11 m ρ c (Proc.devRef .tc main_arg10)
    _ = W10 m ρ c (Proc.devRef .tc main_arg10) := by host_keeps
    _ = W9 m ρ c (Proc.devRef .tc main_arg10) := W10_of_ne m ρ c main_arg10 (by decide)
    _ = W8 m ρ c (Proc.devRef .tc main_arg10) := by host_keeps
    _ = W7 m ρ c (Proc.devRef .tc main_arg10) := W8_of_ne m ρ c main_arg10 (by decide)
    _ = W6 m ρ c (Proc.devRef .tc main_arg10) := by host_keeps
    _ = W5 m ρ c (Proc.devRef .tc main_arg10) := W6_of_ne m ρ c main_arg10 (by decide)
    _ = W4 m ρ c (Proc.devRef .tc main_arg10) := by host_keeps
    _ = W3 m ρ c (Proc.devRef .tc main_arg10) := W4_of_ne m ρ c main_arg10 (by decide)
    _ = W2 m ρ c (Proc.devRef .tc main_arg10) := by host_keeps
    _ = W1 m ρ c (Proc.devRef .tc main_arg10) := by host_keeps
    _ = W0 m ρ c (Proc.devRef .tc main_arg10) := by host_keeps
theorem keep_v3_2_1 : W2 m ρ c (Proc.devRef .tc main_v3) = W1 m ρ c (Proc.devRef .tc main_v3) :=
  calc W2 m ρ c (Proc.devRef .tc main_v3)
    _ = W1 m ρ c (Proc.devRef .tc main_v3) := by host_keeps
theorem keep_v6_2_1 : W2 m ρ c (Proc.devRef .tc main_v6) = W1 m ρ c (Proc.devRef .tc main_v6) :=
  calc W2 m ρ c (Proc.devRef .tc main_v6)
    _ = W1 m ρ c (Proc.devRef .tc main_v6) := by host_keeps
theorem keep_v3_4_1 : W4 m ρ c (Proc.devRef .tc main_v3) = W1 m ρ c (Proc.devRef .tc main_v3) :=
  calc W4 m ρ c (Proc.devRef .tc main_v3)
    _ = W3 m ρ c (Proc.devRef .tc main_v3) := W4_of_ne m ρ c main_v3 (by decide)
    _ = W2 m ρ c (Proc.devRef .tc main_v3) := by host_keeps
    _ = W1 m ρ c (Proc.devRef .tc main_v3) := by host_keeps
theorem keep_v6_4_1 : W4 m ρ c (Proc.devRef .tc main_v6) = W1 m ρ c (Proc.devRef .tc main_v6) :=
  calc W4 m ρ c (Proc.devRef .tc main_v6)
    _ = W3 m ρ c (Proc.devRef .tc main_v6) := W4_of_ne m ρ c main_v6 (by decide)
    _ = W2 m ρ c (Proc.devRef .tc main_v6) := by host_keeps
    _ = W1 m ρ c (Proc.devRef .tc main_v6) := by host_keeps
theorem keep_v30_4_3 : W4 m ρ c (Proc.devRef .tc main_v30) = W3 m ρ c (Proc.devRef .tc main_v30) :=
  calc W4 m ρ c (Proc.devRef .tc main_v30)
    _ = W3 m ρ c (Proc.devRef .tc main_v30) := W4_of_ne m ρ c main_v30 (by decide)
theorem keep_v3_6_4 : W6 m ρ c (Proc.devRef .tc main_v3) = W4 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := by host_keeps
theorem keep_v6_6_4 : W6 m ρ c (Proc.devRef .tc main_v6) = W4 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := by host_keeps
theorem keep_v30_6_4 : W6 m ρ c (Proc.devRef .tc main_v30) = W4 m ρ c (Proc.devRef .tc main_v30) :=
  calc W6 m ρ c (Proc.devRef .tc main_v30)
    _ = W5 m ρ c (Proc.devRef .tc main_v30) := W6_of_ne m ρ c main_v30 (by decide)
    _ = W4 m ρ c (Proc.devRef .tc main_v30) := by host_keeps
theorem keep_v3_8_6 : W8 m ρ c (Proc.devRef .tc main_v3) = W6 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps
theorem keep_v6_8_6 : W8 m ρ c (Proc.devRef .tc main_v6) = W6 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := by host_keeps
theorem keep_v30_8_6 : W8 m ρ c (Proc.devRef .tc main_v30) = W6 m ρ c (Proc.devRef .tc main_v30) :=
  calc W8 m ρ c (Proc.devRef .tc main_v30)
    _ = W7 m ρ c (Proc.devRef .tc main_v30) := W8_of_ne m ρ c main_v30 (by decide)
    _ = W6 m ρ c (Proc.devRef .tc main_v30) := by host_keeps
theorem keep_v74_11_10 : W11 m ρ c (Proc.devRef .tc main_v74) = W10 m ρ c (Proc.devRef .tc main_v74) :=
  calc W11 m ρ c (Proc.devRef .tc main_v74)
    _ = W10 m ρ c (Proc.devRef .tc main_v74) := by host_keeps

/-- The sources, the targets and the normalisation at the entries of the three aggregating stretches are those the
    first three stretches computed. -/
theorem src_at4 : W4 m ρ c (Proc.devRef .tc main_v3) = (W1 m ρ c (Proc.devRef .tc main_v3)) := keep_v3_4_1 m ρ c
theorem dst_at4 : W4 m ρ c (Proc.devRef .tc main_v6) = (W1 m ρ c (Proc.devRef .tc main_v6)) := keep_v6_4_1 m ρ c
theorem nrm_at4 : W4 m ρ c (Proc.devRef .tc main_v30) = (W3 m ρ c (Proc.devRef .tc main_v30)) := keep_v30_4_3 m ρ c
theorem src_at6 : W6 m ρ c (Proc.devRef .tc main_v3) = (W1 m ρ c (Proc.devRef .tc main_v3)) := (keep_v3_6_4 m ρ c).trans (src_at4 m ρ c)
theorem dst_at6 : W6 m ρ c (Proc.devRef .tc main_v6) = (W1 m ρ c (Proc.devRef .tc main_v6)) := (keep_v6_6_4 m ρ c).trans (dst_at4 m ρ c)
theorem nrm_at6 : W6 m ρ c (Proc.devRef .tc main_v30) = (W3 m ρ c (Proc.devRef .tc main_v30)) := (keep_v30_6_4 m ρ c).trans (nrm_at4 m ρ c)
theorem src_at8 : W8 m ρ c (Proc.devRef .tc main_v3) = (W1 m ρ c (Proc.devRef .tc main_v3)) := (keep_v3_8_6 m ρ c).trans (src_at6 m ρ c)
theorem dst_at8 : W8 m ρ c (Proc.devRef .tc main_v6) = (W1 m ρ c (Proc.devRef .tc main_v6)) := (keep_v6_8_6 m ρ c).trans (dst_at6 m ρ c)
theorem nrm_at8 : W8 m ρ c (Proc.devRef .tc main_v30) = (W3 m ρ c (Proc.devRef .tc main_v30)) := (keep_v30_8_6 m ρ c).trans (nrm_at6 m ρ c)

/-! ### The arguments at the boundaries where a region reads them -/

theorem arg0_at3 : V3 m ρ c main_arg0 = (m ((c.tc : Thread nD τ).loc main_arg0)) := keep_arg0_3_0 m ρ c
theorem arg2_at3 : V3 m ρ c main_arg2 = (m ((c.tc : Thread nD τ).loc main_arg2)) := keep_arg2_3_0 m ρ c
theorem arg4_at5 : V5 m ρ c main_arg4 = (m ((c.tc : Thread nD τ).loc main_arg4)) := keep_arg4_5_0 m ρ c
theorem arg6_at7 : V7 m ρ c main_arg6 = (m ((c.tc : Thread nD τ).loc main_arg6)) := keep_arg6_7_0 m ρ c
theorem arg8_at9 : V9 m ρ c main_arg8 = (m ((c.tc : Thread nD τ).loc main_arg8)) := keep_arg8_9_0 m ρ c
theorem arg10_at11 : V11 m ρ c main_arg10 = (m ((c.tc : Thread nD τ).loc main_arg10)) := keep_arg10_11_0 m ρ c

/-! ### The activations, layer by layer -/

/-- Region 0: the node features times the first weight matrix. -/
theorem act0 : W4 m ρ c (Proc.devRef .tc main_v31) = (dense (m ((c.tc : Thread nD τ).loc main_arg0)) (m ((c.tc : Thread nD τ).loc main_arg2))) :=
  (W4_arr m ρ c 2).trans ((Layers.final0 (V3 m ρ) c).trans (by rw [arg0_at3 m ρ c, arg2_at3 m ρ c]))

/-- The stretch before region 1: the neighbourhood sum of region 0's output, and the first bias as a row. -/
theorem agg1 : V5 m ρ c main_v43 = (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) :=
  (read_v43 (W4 m ρ c)).trans (by rw [src_at4 m ρ c, dst_at4 m ρ c, nrm_at4 m ρ c, act0 m ρ c])
theorem bias1 : rowVec (V5 m ρ c main_v44) = (m ((c.tc : Thread nD τ).loc main_arg3)) := by
  rw [show V5 m ρ c main_v44 = shapeCast S1x128 (W4 m ρ c (Proc.devRef .tc main_arg3)) shapeCasts_S128_S1x128 from read_v44 (W4 m ρ c),
    keep_arg3_4_0 m ρ c]
  exact rowVec_shapeCast _ _
/-- Region 1. -/
theorem act1 : W6 m ρ c (Proc.devRef .tc main_v45) = (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4))) :=
  (W6_arr m ρ c 3).trans ((Layers.final1 (V5 m ρ) c).trans (by rw [agg1 m ρ c, bias1 m ρ c, arg4_at5 m ρ c]))

/-- The stretch before region 2. -/
theorem agg2 : V7 m ρ c main_v57 = (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4)))) :=
  (read_v57 (W6 m ρ c)).trans (by rw [src_at6 m ρ c, dst_at6 m ρ c, nrm_at6 m ρ c, act1 m ρ c])
theorem bias2 : rowVec (V7 m ρ c main_v58) = (m ((c.tc : Thread nD τ).loc main_arg5)) := by
  rw [show V7 m ρ c main_v58 = shapeCast S1x128 (W6 m ρ c (Proc.devRef .tc main_arg5)) shapeCasts_S128_S1x128 from read_v58 (W6 m ρ c),
    keep_arg5_6_0 m ρ c]
  exact rowVec_shapeCast _ _
/-- Region 2. -/
theorem act2 : W8 m ρ c (Proc.devRef .tc main_v59) = (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5))) (m ((c.tc : Thread nD τ).loc main_arg6))) :=
  (W8_arr m ρ c 3).trans ((Layers.final2 (V7 m ρ) c).trans (by rw [agg2 m ρ c, bias2 m ρ c, arg6_at7 m ρ c]))

/-- The stretch before region 3. -/
theorem agg3 : V9 m ρ c main_v71 = (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5))) (m ((c.tc : Thread nD τ).loc main_arg6)))) :=
  (read_v71 (W8 m ρ c)).trans (by rw [src_at8 m ρ c, dst_at8 m ρ c, nrm_at8 m ρ c, act2 m ρ c])
theorem bias3 : rowVec (V9 m ρ c main_v72) = (m ((c.tc : Thread nD τ).loc main_arg7)) := by
  rw [show V9 m ρ c main_v72 = shapeCast S1x128 (W8 m ρ c (Proc.devRef .tc main_arg7)) shapeCasts_S128_S1x128 from read_v72 (W8 m ρ c),
    keep_arg7_8_0 m ρ c]
  exact rowVec_shapeCast _ _
theorem bias3' : rowVec (V9 m ρ c main_v73) = (m ((c.tc : Thread nD τ).loc main_arg9)) := by
  rw [show V9 m ρ c main_v73 = shapeCast S1x128 (W8 m ρ c (Proc.devRef .tc main_arg9)) shapeCasts_S128_S1x128 from read_v73 (W8 m ρ c),
    keep_arg9_8_0 m ρ c]
  exact rowVec_shapeCast _ _
/-- Region 3: the third graph layer and the first layer of the head. -/
theorem act3 : W10 m ρ c (Proc.devRef .tc main_v74) = (biasRelu (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5))) (m ((c.tc : Thread nD τ).loc main_arg6)))) (m ((c.tc : Thread nD τ).loc main_arg7))) (m ((c.tc : Thread nD τ).loc main_arg8))) (m ((c.tc : Thread nD τ).loc main_arg9))) :=
  (W10_arr m ρ c 4).trans ((Layers.final3 (V9 m ρ) c).trans (by rw [agg3 m ρ c, bias3 m ρ c, bias3' m ρ c, arg8_at9 m ρ c]))

/-- The last stretch only reshapes the last bias. -/
theorem act3_at11 : V11 m ρ c main_v74 = (biasRelu (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (biasRelu (kAgg (W1 m ρ c (Proc.devRef .tc main_v3)) (W1 m ρ c (Proc.devRef .tc main_v6)) (W3 m ρ c (Proc.devRef .tc main_v30)) (dense (m ((c.tc : Thread nD τ).loc main_arg0)) (m ((c.tc : Thread nD τ).loc main_arg2)))) (m ((c.tc : Thread nD τ).loc main_arg3))) (m ((c.tc : Thread nD τ).loc main_arg4)))) (m ((c.tc : Thread nD τ).loc main_arg5))) (m ((c.tc : Thread nD τ).loc main_arg6)))) (m ((c.tc : Thread nD τ).loc main_arg7))) (m ((c.tc : Thread nD τ).loc main_arg8))) (m ((c.tc : Thread nD τ).loc main_arg9))) := (keep_v74_11_10 m ρ c).trans (act3 m ρ c)
theorem bias4 : rowVec10 (V11 m ρ c main_v75) = (m ((c.tc : Thread nD τ).loc main_arg11)) := by
  rw [show V11 m ρ c main_v75 = shapeCast S1x10 (W10 m ρ c (Proc.devRef .tc main_arg11)) shapeCasts_S10_S1x10 from read_v75 (W10 m ρ c),
    keep_arg11_10_0 m ρ c]
  exact rowVec10_shapeCast _ _

/-- The result buffer at the last boundary: the network over the sources, targets and normalisation the first three
    stretches left. -/
theorem kernel_result_k :
    W12 m ρ c (Proc.devRef .tc main_v76) = kNetwork (W1 m ρ c (Proc.devRef .tc main_v3)) (W1 m ρ c (Proc.devRef .tc main_v6)) (W3 m ρ c (Proc.devRef .tc main_v30)) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (W12_arr m ρ c 3).trans ((Layers.final4 (V11 m ρ) c).trans (by
    rw [act3_at11 m ρ c, arg10_at11 m ρ c, bias4 m ρ c]; rfl))

end Fold

/-! ## The graph quantities are the shared stage functions of the edge list -/

section Graph
variable (W : Valuation τ sig (Elt Ideal))

theorem read_v3 : StableHlo.after (hostOps0 (F := Ideal)) W (Proc.devRef .tc main_v3) = val_main_v3 (F := Ideal) (W (Proc.devRef .tc main_arg1)) := by
  simp only [hostOps0]; after_results_simp; rfl
theorem read_v6 : StableHlo.after (hostOps0 (F := Ideal)) W (Proc.devRef .tc main_v6) = val_main_v6 (F := Ideal) (W (Proc.devRef .tc main_arg1)) := by
  simp only [hostOps0]; after_results_simp; rfl
theorem read_v12 : StableHlo.after (hostOps0 (F := Ideal)) W (Proc.devRef .tc main_v12) = val_main_v12 (F := Ideal) (W (Proc.devRef .tc main_arg1)) := by
  simp only [hostOps0]; after_results_simp; rfl
theorem read_v13 : StableHlo.after (hostOps0 (F := Ideal)) W (Proc.devRef .tc main_v13) = val_main_v13 (F := Ideal) (W (Proc.devRef .tc main_arg1)) := by
  simp only [hostOps0]; after_results_simp; rfl
theorem read_cst_2 : StableHlo.after (hostOps0 (F := Ideal)) W (Proc.devRef .tc main_cst_2) = val_main_cst_2 (F := Ideal) := by
  simp only [hostOps0]; after_results_simp; rfl

end Graph

/-- The kernel's spelling against the shared stage functions: the same operations on records with the same fields. -/
theorem kSel_eq (e : (⟨S2x1600000, .i32⟩ : BufTy).Contents (Elt Ideal)) :
    kSel (val_main_v12 (F := Ideal) e) (val_main_v13 (F := Ideal) e) (val_main_cst_2 (F := Ideal)) = val_main_v14 (F := Ideal) e := rfl
theorem kNorm_eq (e : (⟨S2x1600000, .i32⟩ : BufTy).Contents (Elt Ideal)) :
    kNorm (val_main_v3 (F := Ideal) e) (val_main_v6 (F := Ideal) e) (val_main_v14 (F := Ideal) e) = val_main_v38 (F := Ideal) e := rfl
theorem kAgg_eq (e : (⟨S2x1600000, .i32⟩ : BufTy).Contents (Elt Ideal)) (h : (⟨S100000x128, .f32⟩ : BufTy).Contents (Elt Ideal)) :
    kAgg (val_main_v3 (F := Ideal) e) (val_main_v6 (F := Ideal) e) (val_main_v38 (F := Ideal) e) h = aggregate e h := rfl

/-- With the sources, targets and normalisation the shared stage functions of the edge list, the kernel's spelling
    of the network is the network. -/
theorem kNetwork_eq (e : (⟨S2x1600000, .i32⟩ : BufTy).Contents (Elt Ideal))
    (x0 : (⟨S100000x128, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) :
    kNetwork (val_main_v3 (F := Ideal) e) (val_main_v6 (F := Ideal) e) (val_main_v38 (F := Ideal) e) x0 x2 x3 x4 x5 x6 x7 x8 x9 x10 x11
      = network x0 e x2 x3 x4 x5 x6 x7 x8 x9 x10 x11 := by
  unfold kNetwork network
  rw [kAgg_eq, kAgg_eq, kAgg_eq]

section Result
variable (m : (ℓ : Loc nD τ sig) → Buf (Elt Ideal) ℓ) (ρ : Dev nD → PrngReg) (c : Dev nD)

/-- After the first stretch: the sources, the targets, and the degree's two uses, from the edge list. -/
theorem src_eq : W1 m ρ c (Proc.devRef .tc main_v3) = val_main_v3 (F := Ideal) (m ((c.tc : Thread nD τ).loc main_arg1)) := read_v3 (W0 m ρ c)
theorem dst_eq : W1 m ρ c (Proc.devRef .tc main_v6) = val_main_v6 (F := Ideal) (m ((c.tc : Thread nD τ).loc main_arg1)) := read_v6 (W0 m ρ c)
theorem pos_eq : W1 m ρ c (Proc.devRef .tc main_v12) = val_main_v12 (F := Ideal) (m ((c.tc : Thread nD τ).loc main_arg1)) := read_v12 (W0 m ρ c)
theorem rsq_eq : W1 m ρ c (Proc.devRef .tc main_v13) = val_main_v13 (F := Ideal) (m ((c.tc : Thread nD τ).loc main_arg1)) := read_v13 (W0 m ρ c)
theorem zero_eq : W1 m ρ c (Proc.devRef .tc main_cst_2) = val_main_cst_2 (F := Ideal) := read_cst_2 (W0 m ρ c)
/-- After the second stretch: the inverse square root degree, zero where the degree is not positive. -/
theorem isd_eq : W2 m ρ c (Proc.devRef .tc main_v14) = val_main_v14 (F := Ideal) (m ((c.tc : Thread nD τ).loc main_arg1)) :=
  (read_v14 (W1 m ρ c)).trans (by rw [pos_eq m ρ c, rsq_eq m ρ c, zero_eq m ρ c]; exact kSel_eq _)
/-- After the third stretch: the per-edge normalisation. -/
theorem nrm_eq : W3 m ρ c (Proc.devRef .tc main_v30) = val_main_v38 (F := Ideal) (m ((c.tc : Thread nD τ).loc main_arg1)) :=
  (read_v30 (W2 m ρ c)).trans (by
    rw [keep_v3_2_1 m ρ c, keep_v6_2_1 m ρ c, src_eq m ρ c, dst_eq m ρ c, isd_eq m ρ c]; exact kNorm_eq _)

/-- The kernel program's result buffer at the last boundary is the network of the twelve launch arguments. -/
theorem kernel_result :
    W12 m ρ c (Proc.devRef .tc main_v76) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) :=
  (kernel_result_k m ρ c).trans (by
    rw [src_eq m ρ c, dst_eq m ρ c, nrm_eq m ρ c]; exact kNetwork_eq _ _ _ _ _ _ _ _ _ _ _ _)

end Result

/-- The kernel program runs, its result is the network of its arguments, and its arguments end as launched. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v76) = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (kernel_result m ρ c), (h c).2⟩) (run_named m ρ)

end Cert.Gcn

end
-- ==== Proof.RefNetwork.lean ====
/-
  The reference program computes `network`.

  Each stage of the reference is read as one of the whole-array functions: a `dot_general` is `dense` (or
  `dense10` for the last one), the scatter-add of the scaled gathered rows is `aggregate`, and the broadcast bias
  followed by the maximum with the broadcast zero is `biasRelu`.  The reference recomputes the degree normalisation
  and the edge indices in every layer; the recomputed stages are the same terms as those of the first layer, so each
  aggregation is the one function `aggregate` of the edge list and of that layer's features, and it is never opened.
-/
import proofs.«154853_j13288628814527_1_alg».proof.Proof.GcnNetwork

noncomputable section

namespace Cert.Gcn

open Idealize.ShloMosaic Cert.ReferenceIdeal Cert.ReferenceIdeal.ReadP

/-! ### The three kinds of stage, for arbitrary operands -/

/-- The 128 × 128 `dot_general` is the matrix product `dense`: its element at `i` is the sum over the 128 features
    of the left operand's row entry times the right operand's column entry. -/
theorem dotGeneral_eq_dense (a : FVec Ideal S100000x128 .f32) (w : FVec Ideal S128x128 .f32) :
    Host.dotGeneral (F := Ideal) dot_S100000x128_S128x128_S100000x128_1_0_0_1_n_n none a w = dense a w := by
  funext i
  exact (val_main_v30_apply a w i).trans (Finset.sum_congr rfl fun k _ => rfl)

/-- Adding the bias broadcast along the rows, then taking the maximum with the broadcast zero, is `biasRelu`:
    the two broadcasts read the bias at the column of `i`, and the zero array is zero everywhere. -/
theorem maximum_add_eq_biasRelu (a : FVec Ideal S100000x128 .f32) (b : FVec Ideal S128 .f32) :
    maximumf (addf a (val_main_v45 (F := Ideal) b)) (val_main_call1_v0 (F := Ideal)) = biasRelu a b := by
  funext i
  show FloatOps.maximumf (FloatOps.addf (a i) (val_main_v45 (F := Ideal) b i)) (val_main_call1_v0 (F := Ideal) i) = _
  rw [val_main_v45_apply, val_main_v44_apply, val_main_call1_v0_apply, val_main_call1_cst_apply]
  rfl

/-! ### The aggregations

  In each layer the scatter-add stage is `aggregate` of the edge list and of that layer's product: the
  normalisation factors and the index arrays of layers 2 and 3 unfold to the very terms of layer 1. -/

theorem v43_eq_aggregate (x0 : (⟨S100000x128, .f32⟩ : BufTy).Contents (Elt Ideal)) (x1 : (⟨S2x1600000, .i32⟩ : BufTy).Contents (Elt Ideal)) (x2 : (⟨S128x128, .f32⟩ : BufTy).Contents (Elt Ideal)) :
    val_main_v43 (F := Ideal) x0 x1 x2 = aggregate x1 (val_main_v30 (F := Ideal) x0 x2) := rfl

theorem v84_eq_aggregate (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v84 (F := Ideal) x0 x1 x2 x3 x4 = aggregate x1 (val_main_v71 (F := Ideal) x0 x1 x2 x3 x4) := rfl

theorem v125_eq_aggregate (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) :
    val_main_v125 (F := Ideal) x0 x1 x2 x3 x4 x5 x6 = aggregate x1 (val_main_v112 (F := Ideal) x0 x1 x2 x3 x4 x5 x6) := rfl

/-! ### The layers -/

/-- Layer 1. -/
theorem v47_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) :
    val_main_v47 (F := Ideal) x0 x1 x2 x3 = biasRelu (aggregate x1 (dense x0 x2)) x3 :=
  (maximum_add_eq_biasRelu (val_main_v43 (F := Ideal) x0 x1 x2) x3).trans
    (congrArg (fun t => biasRelu t x3)
      ((v43_eq_aggregate x0 x1 x2).trans (congrArg (aggregate x1) (dotGeneral_eq_dense x0 x2))))

/-- Layer 2, from the result of layer 1. -/
theorem v88_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v88 (F := Ideal) x0 x1 x2 x3 x4 x5 = biasRelu (aggregate x1 (dense (val_main_v47 (F := Ideal) x0 x1 x2 x3) x4)) x5 :=
  (maximum_add_eq_biasRelu (val_main_v84 (F := Ideal) x0 x1 x2 x3 x4) x5).trans
    (congrArg (fun t => biasRelu t x5)
      ((v84_eq_aggregate x0 x1 x2 x3 x4).trans (congrArg (aggregate x1) (dotGeneral_eq_dense (val_main_v47 (F := Ideal) x0 x1 x2 x3) x4))))

/-- Layer 3, from the result of layer 2. -/
theorem v129_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) :
    val_main_v129 (F := Ideal) x0 x1 x2 x3 x4 x5 x6 x7 = biasRelu (aggregate x1 (dense (val_main_v88 (F := Ideal) x0 x1 x2 x3 x4 x5) x6)) x7 :=
  (maximum_add_eq_biasRelu (val_main_v125 (F := Ideal) x0 x1 x2 x3 x4 x5 x6) x7).trans
    (congrArg (fun t => biasRelu t x7)
      ((v125_eq_aggregate x0 x1 x2 x3 x4 x5 x6).trans (congrArg (aggregate x1) (dotGeneral_eq_dense (val_main_v88 (F := Ideal) x0 x1 x2 x3 x4 x5) x6))))

/-- The first layer of the head: a product, a bias and the clamp, with no aggregation. -/
theorem v134_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) :
    val_main_v134 (F := Ideal) x0 x1 x2 x3 x4 x5 x6 x7 x8 x9 = biasRelu (dense (val_main_v129 (F := Ideal) x0 x1 x2 x3 x4 x5 x6 x7) x8) x9 :=
  (maximum_add_eq_biasRelu (val_main_v130 (F := Ideal) x0 x1 x2 x3 x4 x5 x6 x7 x8) x9).trans
    (congrArg (fun t => biasRelu t x9) (dotGeneral_eq_dense (val_main_v129 (F := Ideal) x0 x1 x2 x3 x4 x5 x6 x7) x8))

/-- The last layer: the product into the 10 classes plus the class bias. -/
theorem v138_eq (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) :
    val_main_v138 (F := Ideal) x0 x1 x2 x3 x4 x5 x6 x7 x8 x9 x10 x11 = addBias10 (dense10 (val_main_v134 (F := Ideal) x0 x1 x2 x3 x4 x5 x6 x7 x8 x9) x10) x11 := by
  funext i
  rw [val_main_v138_apply, val_main_v135_apply, val_main_v137_apply, val_main_v136_apply]
  rfl

/-- The reference program's result is the network applied to its twelve arguments. -/
theorem reference_is_network (x0 : (⟨S100000x128, .f32⟩ : BufTy).Contents (Elt Ideal)) (x1 : (⟨S2x1600000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S128x128, .f32⟩ : BufTy).Contents (Elt Ideal)) (x9 : (⟨S128, .f32⟩ : BufTy).Contents (Elt Ideal)) (x10 : (⟨S128x10, .f32⟩ : BufTy).Contents (Elt Ideal)) (x11 : (⟨S10, .f32⟩ : BufTy).Contents (Elt Ideal)) :
    Cert.ReferenceIdeal.ReadP.val_main_v138 (F := Ideal) x0 x1 x2 x3 x4 x5 x6 x7 x8 x9 x10 x11 = network x0 x1 x2 x3 x4 x5 x6 x7 x8 x9 x10 x11 := by
  rw [v138_eq, v134_eq, v129_eq, v88_eq, v47_eq]
  rfl

end Cert.Gcn

end
-- ==== Proof.lean ====
/-
  Both programs compute one graph network on 100000 nodes: three rounds of (multiply the node features by a
  128 × 128 weight matrix; sum each node's neighbours' rows, scaled by the inverse square roots of the two degrees,
  self-loops included; add a bias; clamp below at zero) followed by a two-layer head (128 hidden features, then 10
  class scores).  `Cert.Gcn.network` states it as one function of the twelve argument arrays over the extended reals.

  The kernel computes every matrix product in blocks of 5000 node rows, 20 blocks tiling the 100000 rows, and fuses
  the bias and the clamp of one layer into the next layer's product; row r of block t is row 5000·t + r of the array,
  so each region leaves exactly the whole-array layer (`Cert.Gcn.Layers`).  Between the regions the host gathers and
  scatter-adds along the edges; the degree normalisation is computed once and reused, where the reference computes
  the same term three times.  Reading the run back region by region gives `network` of the arguments
  (`Cert.Gcn.kernel_run`).  The reference is a straight line of host operations whose stages are the same layers
  (`Cert.Gcn.reference_is_network`).  No law of arithmetic beyond "a sum into zero is the sum" joins the two sides, so
  finiteness of the inputs is not used.

  The three frame claims are the generated frames; the idealization rewrote nothing, so `preserves` is `True`.
-/
import proofs.«154853_j13288628814527_1_alg».proof.Defs
import proofs.«154853_j13288628814527_1_alg».proof.Proof.Gen.Kernel
import proofs.«154853_j13288628814527_1_alg».proof.Proof.Gen.Kernel.Skeleton
import proofs.«154853_j13288628814527_1_alg».proof.Proof.Gen.Kernel.Launch
import proofs.«154853_j13288628814527_1_alg».proof.Proof.Gen.Kernel.Points
import proofs.«154853_j13288628814527_1_alg».proof.Proof.Gen.Kernel.Frame
import proofs.«154853_j13288628814527_1_alg».proof.Proof.Gen.KernelIdeal
import proofs.«154853_j13288628814527_1_alg».proof.Proof.Gen.KernelIdeal.Skeleton
import proofs.«154853_j13288628814527_1_alg».proof.Proof.Gen.KernelIdeal.Launch
import proofs.«154853_j13288628814527_1_alg».proof.Proof.Gen.KernelIdeal.Points
import proofs.«154853_j13288628814527_1_alg».proof.Proof.Gen.KernelIdeal.Frame
import proofs.«154853_j13288628814527_1_alg».proof.Proof.Gen.ReferenceIdeal
import proofs.«154853_j13288628814527_1_alg».proof.Proof.RefRunP
import proofs.«154853_j13288628814527_1_alg».proof.Proof.RefReadP
import proofs.«154853_j13288628814527_1_alg».proof.Proof.Gen.Pre_finite_inputs
import proofs.«154853_j13288628814527_1_alg».proof.Proof.KernelFold
import proofs.«154853_j13288628814527_1_alg».proof.Proof.RefNetwork
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernel_ideal : Cert.frame_KernelIdeal := fun m ρ _ => Cert.KernelIdeal.Gen.frame m ρ
/-- The reference's run read back, its result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- From memories agreeing on the twelve arguments both runs end with the class scores at `network` of the
    arguments: the kernel's by its run read back, the reference's because its last stage is `network`. -/
theorem algebraic : Cert.algebraic_KernelIdeal_ReferenceIdeal := by
  intro m ρ m' ρ' _ hagree
  refine ⟨fun c => Cert.Gcn.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), Cert.Gcn.kernel_run m ρ, ?_⟩
  refine (θ_run Cert.ReferenceIdeal.defs _ _).mono (fun _ h c => ⟨(h c).1.trans ?_, (h c).2⟩)
    (Cert.ReferenceIdeal.ValueP.run (F := Ideal) m' ρ')
  obtain ⟨a0, a1, a2, a3, a4, a5, a6, a7, a8, a9, a10, a11⟩ := hagree c
  rw [Cert.ReferenceIdeal.ReadP.val_main_v138_eq, Cert.Gcn.reference_is_network, a0, a1, a2, a3, a4, a5, a6, a7, a8, a9, a10, a11]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
